-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x2048 : Shape := ⟨4, ![4, 8, 2048, 2048]⟩
abbrev S_ : Shape := ⟨0, ![]⟩

class Facts : Prop where
  bcast_S_S4x8x2048x2048 : S_.BroadcastsInDim S4x8x2048x2048 (![] : Fin 0 → Fin S4x8x2048x2048.rank)
  reducesTo_S4x8x2048x2048_S_d0_1_2_3 : S4x8x2048x2048.ReducesTo [0, 1, 2, 3] S_
  h_S_ : 0 < S_.numel

variable [Facts]

def fn {F : FTy → Type} [FloatOps F] (main_arg0 : FVec F S4x8x2048x2048 .f32) : IVec S_ 1 :=
  let main_v0 : FVec F S4x8x2048x2048 .f32 := Host.absf main_arg0
  let main_cst : FVec F S_ .f32 := constant S_ .f32 0x7F800000#32
  let main_v1 : FVec F S4x8x2048x2048 .f32 := broadcastInDim S4x8x2048x2048 ![] bcast_S_S4x8x2048x2048 main_cst
  let main_v2 : IVec S4x8x2048x2048 1 := cmpf .olt main_v0 main_v1
  let main_c : IVec S_ 1 := constantI S_ 1 1#1
  let main_v3 : IVec S_ 1 := (fun x v => Host.reduce IntOp.andi x v reducesTo_S4x8x2048x2048_S_d0_1_2_3 h_S_) main_v2 main_c
  main_v3
-- ==== Kernel.lean ====
abbrev S4x8x2048x2048 : Shape := ⟨4, ![4, 8, 2048, 2048]⟩
abbrev S3 : Shape := ⟨1, ![3]⟩
abbrev S4x2048x2048 : Shape := ⟨3, ![4, 2048, 2048]⟩
abbrev S1x8x256x2048 : Shape := ⟨4, ![1, 8, 256, 2048]⟩
abbrev S1x256x2048 : Shape := ⟨3, ![1, 256, 2048]⟩
abbrev S8x256x2048 : Shape := ⟨3, ![8, 256, 2048]⟩
abbrev S256x2048 : Shape := ⟨2, ![256, 2048]⟩
abbrev S4x1024x2x1024x2 : Shape := ⟨5, ![4, 1024, 2, 1024, 2]⟩
abbrev S_ : Shape := ⟨0, ![]⟩
abbrev S4x1024x1024 : Shape := ⟨3, ![4, 1024, 1024]⟩
abbrev S4 : Shape := ⟨1, ![4]⟩
abbrev S4x512x4x512x4 : Shape := ⟨5, ![4, 512, 4, 512, 4]⟩
abbrev S4x512x512 : Shape := ⟨3, ![4, 512, 512]⟩
abbrev S4x256x8x256x8 : Shape := ⟨5, ![4, 256, 8, 256, 8]⟩
abbrev S4x256x256 : Shape := ⟨3, ![4, 256, 256]⟩
abbrev S4x1 : Shape := ⟨2, ![4, 1]⟩
abbrev S4x3 : Shape := ⟨2, ![4, 3]⟩
abbrev S1x3 : Shape := ⟨2, ![1, 3]⟩

abbrev nBuf : Space → Nat
  | .hbm => 64
  | .vmem => 4
  | .smem => 0
  | _ => 0

abbrev bufTy : (tb : Table) → Fin (tcTables nBuf tb) → BufTy
  | .hbm, ⟨0, _⟩ => ⟨S4x8x2048x2048, .f32⟩
  | .hbm, ⟨1, _⟩ => ⟨S3, .f32⟩
  | .hbm, ⟨2, _⟩ => ⟨S4x2048x2048, .f32⟩
  | .hbm, ⟨3, _⟩ => ⟨S4x1024x2x1024x2, .f32⟩
  | .hbm, ⟨4, _⟩ => ⟨S_, .f32⟩
  | .hbm, ⟨5, _⟩ => ⟨S4x1024x1024, .f32⟩
  | .hbm, ⟨6, _⟩ => ⟨S_, .f32⟩
  | .hbm, ⟨7, _⟩ => ⟨S4, .f32⟩
  | .hbm, ⟨8, _⟩ => ⟨S4x512x4x512x4, .f32⟩
  | .hbm, ⟨9, _⟩ => ⟨S_, .f32⟩
  | .hbm, ⟨10, _⟩ => ⟨S4x512x512, .f32⟩
  | .hbm, ⟨11, _⟩ => ⟨S_, .f32⟩
  | .hbm, ⟨12, _⟩ => ⟨S4, .f32⟩
  | .hbm, ⟨13, _⟩ => ⟨S4x256x8x256x8, .f32⟩
  | .hbm, ⟨14, _⟩ => ⟨S_, .f32⟩
  | .hbm, ⟨15, _⟩ => ⟨S4x256x256, .f32⟩
  | .hbm, ⟨16, _⟩ => ⟨S_, .f32⟩
  | .hbm, ⟨17, _⟩ => ⟨S4, .f32⟩
  | .hbm, ⟨18, _⟩ => ⟨S4x1, .f32⟩
  | .hbm, ⟨19, _⟩ => ⟨S4x1, .f32⟩
  | .hbm, ⟨20, _⟩ => ⟨S4x1, .f32⟩
  | .hbm, ⟨21, _⟩ => ⟨S4x3, .f32⟩
  | .hbm, ⟨22, _⟩ => ⟨S_, .f32⟩
  | .hbm, ⟨23, _⟩ => ⟨S3, .f32⟩
  | .hbm, ⟨24, _⟩ => ⟨S3, .f32⟩
  | .hbm, ⟨25, _⟩ => ⟨S3, .f32⟩
  | .hbm, ⟨26, _⟩ => ⟨S_, .f32⟩
  | .hbm, ⟨27, _⟩ => ⟨S4x3, .f32⟩
  | .hbm, ⟨28, _⟩ => ⟨S4x3, .f32⟩
  | .hbm, ⟨29, _⟩ => ⟨S4x3, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S3, .f32⟩
  | .hbm, ⟨35, _⟩ => ⟨S3, .f32⟩
  | .hbm, ⟨36, _⟩ => ⟨S_, .f32⟩
  | .hbm, ⟨37, _⟩ => ⟨S4, .f32⟩
  | .hbm, ⟨38, _⟩ => ⟨S4x1, .f32⟩
  | .hbm, ⟨39, _⟩ => ⟨S_, .f32⟩
  | .hbm, ⟨40, _⟩ => ⟨S4x1, .f32⟩
  | .hbm, ⟨41, _⟩ => ⟨S4x1, .f32⟩
  | .hbm, ⟨42, _⟩ => ⟨S4x3, .f32⟩
  | .hbm, ⟨43, _⟩ => ⟨S4x3, .f32⟩
  | .hbm, ⟨44, _⟩ => ⟨S1x3, .f32⟩
  | .hbm, ⟨45, _⟩ => ⟨S4x3, .f32⟩
  | .hbm, ⟨46, _⟩ => ⟨S4x3, .f32⟩
  | .hbm, ⟨47, _⟩ => ⟨S_, .f32⟩
  | .hbm, ⟨48, _⟩ => ⟨S4, .f32⟩
  | .hbm, ⟨49, _⟩ => ⟨S3, .f32⟩
  | .hbm, ⟨50, _⟩ => ⟨S_, .f32⟩
  | .hbm, ⟨51, _⟩ => ⟨S_, .f32⟩
  | .hbm, ⟨52, _⟩ => ⟨S4, .f32⟩
  | .hbm, ⟨53, _⟩ => ⟨S4, .f32⟩
  | .hbm, ⟨54, _⟩ => ⟨S_, .f32⟩
  | .hbm, ⟨55, _⟩ => ⟨S4, .f32⟩
  | .hbm, ⟨56, _⟩ => ⟨S4, .f32⟩
  | .hbm, ⟨57, _⟩ => ⟨S4, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .local _ .vmem, ⟨0, _⟩ => ⟨S1x8x256x2048, .f32⟩
  | .local _ .vmem, ⟨1, _⟩ => ⟨S1x8x256x2048, .f32⟩
  | .local _ .vmem, ⟨2, _⟩ => ⟨S1x256x2048, .f32⟩
  | .local _ .vmem, ⟨3, _⟩ => ⟨S1x256x2048, .f32⟩
  | _, _ => ⟨S4x8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_cst_3 : Ref sig .tc := ⟨.hbm, 11, rfl⟩
abbrev main_v6 : Ref sig .tc := ⟨.hbm, 12, rfl⟩
abbrev main_v7 : Ref sig .tc := ⟨.hbm, 13, rfl⟩
abbrev main_cst_4 : Ref sig .tc := ⟨.hbm, 14, rfl⟩
abbrev main_v8 : Ref sig .tc := ⟨.hbm, 15, rfl⟩
abbrev main_cst_5 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_6 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_7 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_8 : Ref sig .tc := ⟨.hbm, 30, rfl⟩
abbrev main_v20 : Ref sig .tc := ⟨.hbm, 31, rfl⟩
abbrev main_cst_9 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_10 : Ref sig .tc := ⟨.hbm, 36, rfl⟩
abbrev main_v24 : Ref sig .tc := ⟨.hbm, 37, rfl⟩
abbrev main_v25 : Ref sig .tc := ⟨.hbm, 38, rfl⟩
abbrev main_cst_11 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_12 : Ref sig .tc := ⟨.hbm, 47, rfl⟩
abbrev main_v33 : Ref sig .tc := ⟨.hbm, 48, rfl⟩
abbrev main_v34 : Ref sig .tc := ⟨.hbm, 49, rfl⟩
abbrev main_cst_13 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_14 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_15 : Ref sig .tc := ⟨.hbm, 58, rfl⟩
abbrev main_v41 : Ref sig .tc := ⟨.hbm, 59, rfl⟩
abbrev main_cst_16 : Ref sig .tc := ⟨.hbm, 60, rfl⟩
abbrev main_v42 : Ref sig .tc := ⟨.hbm, 61, rfl⟩
abbrev main_cst_17 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x8x256x2048_S1x8x256x2048_0_0_0_0 : ∀ a, (![0, 0, 0, 0] : Fin 4 → Nat) a + S1x8x256x2048.size a ≤ S1x8x256x2048.size a
  h_S1x8x256x2048 : 0 < S1x8x256x2048.numel
  shapeCasts_S1x8x256x2048_S8x256x2048 : S1x8x256x2048.ShapeCasts S8x256x2048
  reduces_S8x256x2048_S256x2048 : S8x256x2048.Reduces [0] S256x2048
  natLt_1_32 : 1 < 32
  shapeCasts_S256x2048_S1x256x2048 : S256x2048.ShapeCasts S1x256x2048
  inb_S1x256x2048_S1x256x2048_0_0_0 : ∀ a, (![0, 0, 0] : Fin 3 → Nat) a + S1x256x2048.size a ≤ S1x256x2048.size a
  h_S1x256x2048 : 0 < S1x256x2048.numel
  shapeCasts_S4x2048x2048_S4x1024x2x1024x2 : S4x2048x2048.ShapeCasts S4x1024x2x1024x2
  reducesTo_S4x1024x2x1024x2_S4x1024x1024_d2_4 : S4x1024x2x1024x2.ReducesTo [2, 4] S4x1024x1024
  h_S_ : 0 < S_.numel
  reducesTo_S4x1024x1024_S4_d1_2 : S4x1024x1024.ReducesTo [1, 2] S4
  shapeCasts_S4x2048x2048_S4x512x4x512x4 : S4x2048x2048.ShapeCasts S4x512x4x512x4
  reducesTo_S4x512x4x512x4_S4x512x512_d2_4 : S4x512x4x512x4.ReducesTo [2, 4] S4x512x512
  reducesTo_S4x512x512_S4_d1_2 : S4x512x512.ReducesTo [1, 2] S4
  shapeCasts_S4x2048x2048_S4x256x8x256x8 : S4x2048x2048.ShapeCasts S4x256x8x256x8
  reducesTo_S4x256x8x256x8_S4x256x256_d2_4 : S4x256x8x256x8.ReducesTo [2, 4] S4x256x256
  reducesTo_S4x256x256_S4_d1_2 : S4x256x256.ReducesTo [1, 2] S4
  bcast_S4_S4x1_0 : S4.BroadcastsInDim S4x1 (![0] : Fin 1 → Fin S4x1.rank)
  concatenates_S4x1_S4x1_S4x1_S4x3_d1 : Shape.Concatenates [S4x1, S4x1, S4x1] S4x3 1
  bcast_S_S3 : S_.BroadcastsInDim S3 (![] : Fin 0 → Fin S3.rank)
  bcast_S_S4x3 : S_.BroadcastsInDim S4x3 (![] : Fin 0 → Fin S4x3.rank)
  reducesTo_S3_S_d0 : S3.ReducesTo [0] S_
  reducesTo_S4x3_S4_d1 : S4x3.ReducesTo [1] S4
  bcast_S_S4x1 : S_.BroadcastsInDim S4x1 (![] : Fin 0 → Fin S4x1.rank)
  bcast_S4x1_S4x3_0_1 : S4x1.BroadcastsInDim S4x3 (![0, 1] : Fin 2 → Fin S4x3.rank)
  bcast_S3_S1x3_1 : S3.BroadcastsInDim S1x3 (![1] : Fin 1 → Fin S1x3.rank)
  bcast_S1x3_S4x3_0_1 : S1x3.BroadcastsInDim S4x3 (![0, 1] : Fin 2 → Fin S4x3.rank)
  bcast_S_S4 : S_.BroadcastsInDim S4 (![] : Fin 0 → Fin S4.rank)
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x2048.size a ≤ S4x8x2048x2048.size a
  hwx0_0 : ∀ i : grid0.Coords, EltTy.bits .f32 = 32 ∨ (Rect.block (s := S4x8x2048x2048) S1x8x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S4x2048x2048.size a
  hwx0_1 : ∀ i : grid0.Coords, EltTy.bits .f32 = 32 ∨ (Rect.block (s := S4x2048x2048) S1x256x2048.size (cc0_transform_1 i) (hinb0_1 i)).WholeWords (EltTy.packing .f32)

variable [Facts₀]

abbrev win0_0 : Pipeline.Window sig grid0 :=
  Pipeline.Window.ofSpec (Memref.whole main_arg0) S1x8x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x8x2048x2048 : Shape := ⟨4, ![4, 8, 2048, 2048]⟩
abbrev S3 : Shape := ⟨1, ![3]⟩
abbrev S_ : Shape := ⟨0, ![]⟩
abbrev S4x2048x2048 : Shape := ⟨3, ![4, 2048, 2048]⟩
abbrev S4x1024x2x1024x2 : Shape := ⟨5, ![4, 1024, 2, 1024, 2]⟩
abbrev S4x1024x1024 : Shape := ⟨3, ![4, 1024, 1024]⟩
abbrev S4 : Shape := ⟨1, ![4]⟩
abbrev S4x512x4x512x4 : Shape := ⟨5, ![4, 512, 4, 512, 4]⟩
abbrev S4x512x512 : Shape := ⟨3, ![4, 512, 512]⟩
abbrev S4x256x8x256x8 : Shape := ⟨5, ![4, 256, 8, 256, 8]⟩
abbrev S4x256x256 : Shape := ⟨3, ![4, 256, 256]⟩
abbrev S4x1 : Shape := ⟨2, ![4, 1]⟩
abbrev S4x3 : Shape := ⟨2, ![4, 3]⟩
abbrev S1x3 : Shape := ⟨2, ![1, 3]⟩

abbrev nBuf : Space → Nat
  | .hbm => 72
  | .vmem => 0
  | .smem => 0
  | _ => 0

abbrev bufTy : (tb : Table) → Fin (tcTables nBuf tb) → BufTy
  | .hbm, ⟨0, _⟩ => ⟨S4x8x2048x2048, .f32⟩
  | .hbm, ⟨1, _⟩ => ⟨S3, .f32⟩
  | .hbm, ⟨2, _⟩ => ⟨S_, .f32⟩
  | .hbm, ⟨3, _⟩ => ⟨S4x2048x2048, .f32⟩
  | .hbm, ⟨4, _⟩ => ⟨S_, .f32⟩
  | .hbm, ⟨5, _⟩ => ⟨S4x2048x2048, .f32⟩
  | .hbm, ⟨6, _⟩ => ⟨S4x2048x2048, .f32⟩
  | .hbm, ⟨7, _⟩ => ⟨S_, .f32⟩
  | .hbm, ⟨8, _⟩ => ⟨S4x2048x2048, .f32⟩
  | .hbm, ⟨9, _⟩ => ⟨S4x2048x2048, .i1⟩
  | .hbm, ⟨10, _⟩ => ⟨S4x2048x2048, .f32⟩
  | .hbm, ⟨11, _⟩ => ⟨S4x1024x2x1024x2, .f32⟩
  | .hbm, ⟨12, _⟩ => ⟨S_, .f32⟩
  | .hbm, ⟨13, _⟩ => ⟨S4x1024x1024, .f32⟩
  | .hbm, ⟨14, _⟩ => ⟨S_, .f32⟩
  | .hbm, ⟨15, _⟩ => ⟨S4, .f32⟩
  | .hbm, ⟨16, _⟩ => ⟨S4x512x4x512x4, .f32⟩
  | .hbm, ⟨17, _⟩ => ⟨S_, .f32⟩
  | .hbm, ⟨18, _⟩ => ⟨S4x512x512, .f32⟩
  | .hbm, ⟨19, _⟩ => ⟨S_, .f32⟩
  | .hbm, ⟨20, _⟩ => ⟨S4, .f32⟩
  | .hbm, ⟨21, _⟩ => ⟨S4x256x8x256x8, .f32⟩
  | .hbm, ⟨22, _⟩ => ⟨S_, .f32⟩
  | .hbm, ⟨23, _⟩ => ⟨S4x256x256, .f32⟩
  | .hbm, ⟨24, _⟩ => ⟨S_, .f32⟩
  | .hbm, ⟨25, _⟩ => ⟨S4, .f32⟩
  | .hbm, ⟨26, _⟩ => ⟨S4x1, .f32⟩
  | .hbm, ⟨27, _⟩ => ⟨S4x1, .f32⟩
  | .hbm, ⟨28, _⟩ => ⟨S4x1, .f32⟩
  | .hbm, ⟨29, _⟩ => ⟨S4x3, .f32⟩
  | .hbm, ⟨30, _⟩ => ⟨S_, .f32⟩
  | .hbm, ⟨31, _⟩ => ⟨S3, .f32⟩
  | .hbm, ⟨32, _⟩ => ⟨S3, .f32⟩
  | .hbm, ⟨33, _⟩ => ⟨S3, .f32⟩
  | .hbm, ⟨34, _⟩ => ⟨S_, .f32⟩
  | .hbm, ⟨35, _⟩ => ⟨S4x3, .f32⟩
  | .hbm, ⟨36, _⟩ => ⟨S4x3, .f32⟩
  | .hbm, ⟨37, _⟩ => ⟨S4x3, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S3, .f32⟩
  | .hbm, ⟨43, _⟩ => ⟨S3, .f32⟩
  | .hbm, ⟨44, _⟩ => ⟨S_, .f32⟩
  | .hbm, ⟨45, _⟩ => ⟨S4, .f32⟩
  | .hbm, ⟨46, _⟩ => ⟨S4x1, .f32⟩
  | .hbm, ⟨47, _⟩ => ⟨S_, .f32⟩
  | .hbm, ⟨48, _⟩ => ⟨S4x1, .f32⟩
  | .hbm, ⟨49, _⟩ => ⟨S4x1, .f32⟩
  | .hbm, ⟨50, _⟩ => ⟨S4x3, .f32⟩
  | .hbm, ⟨51, _⟩ => ⟨S4x3, .f32⟩
  | .hbm, ⟨52, _⟩ => ⟨S1x3, .f32⟩
  | .hbm, ⟨53, _⟩ => ⟨S4x3, .f32⟩
  | .hbm, ⟨54, _⟩ => ⟨S4x3, .f32⟩
  | .hbm, ⟨55, _⟩ => ⟨S_, .f32⟩
  | .hbm, ⟨56, _⟩ => ⟨S4, .f32⟩
  | .hbm, ⟨57, _⟩ => ⟨S3, .f32⟩
  | .hbm, ⟨58, _⟩ => ⟨S_, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S_, .f32⟩
  | .hbm, ⟨63, _⟩ => ⟨S4, .f32⟩
  | .hbm, ⟨64, _⟩ => ⟨S4, .f32⟩
  | .hbm, ⟨65, _⟩ => ⟨S4, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S4x8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_cst_1 : Ref sig .tc := ⟨.hbm, 4, rfl⟩
abbrev main_v1 : Ref sig .tc := ⟨.hbm, 5, rfl⟩
abbrev main_v2 : Ref sig .tc := ⟨.hbm, 6, rfl⟩
abbrev main_cst_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_3 : Ref sig .tc := ⟨.hbm, 12, rfl⟩
abbrev main_v7 : Ref sig .tc := ⟨.hbm, 13, rfl⟩
abbrev main_cst_4 : Ref sig .tc := ⟨.hbm, 14, rfl⟩
abbrev main_v8 : Ref sig .tc := ⟨.hbm, 15, rfl⟩
abbrev main_v9 : Ref sig .tc := ⟨.hbm, 16, rfl⟩
abbrev main_cst_5 : Ref sig .tc := ⟨.hbm, 17, rfl⟩
abbrev main_v10 : Ref sig .tc := ⟨.hbm, 18, rfl⟩
abbrev main_cst_6 : Ref sig .tc := ⟨.hbm, 19, rfl⟩
abbrev main_v11 : Ref sig .tc := ⟨.hbm, 20, rfl⟩
abbrev main_v12 : Ref sig .tc := ⟨.hbm, 21, rfl⟩
abbrev main_cst_7 : Ref sig .tc := ⟨.hbm, 22, rfl⟩
abbrev main_v13 : Ref sig .tc := ⟨.hbm, 23, rfl⟩
abbrev main_cst_8 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_9 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_10 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_11 : Ref sig .tc := ⟨.hbm, 38, rfl⟩
abbrev main_v25 : Ref sig .tc := ⟨.hbm, 39, rfl⟩
abbrev main_cst_12 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_13 : Ref sig .tc := ⟨.hbm, 44, rfl⟩
abbrev main_v29 : Ref sig .tc := ⟨.hbm, 45, rfl⟩
abbrev main_v30 : Ref sig .tc := ⟨.hbm, 46, rfl⟩
abbrev main_cst_14 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_15 : Ref sig .tc := ⟨.hbm, 55, rfl⟩
abbrev main_v38 : Ref sig .tc := ⟨.hbm, 56, rfl⟩
abbrev main_v39 : Ref sig .tc := ⟨.hbm, 57, rfl⟩
abbrev main_cst_16 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_17 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_18 : Ref sig .tc := ⟨.hbm, 66, rfl⟩
abbrev main_v46 : Ref sig .tc := ⟨.hbm, 67, rfl⟩
abbrev main_cst_19 : Ref sig .tc := ⟨.hbm, 68, rfl⟩
abbrev main_v47 : Ref sig .tc := ⟨.hbm, 69, rfl⟩
abbrev main_cst_20 : Ref sig .tc := ⟨.hbm, 70, rfl⟩
abbrev main_v48 : Ref sig .tc := ⟨.hbm, 71, rfl⟩

abbrev nD : Nat := 1
abbrev τ : Topo := Topo.v7x

variable {F : FTy → Type} [FloatOps F]

class Facts₀ : Prop where
  reducesTo_S4x8x2048x2048_S4x2048x2048_d1 : S4x8x2048x2048.ReducesTo [1] S4x2048x2048
  h_S_ : 0 < S_.numel
  bcast_S_S4x2048x2048 : S_.BroadcastsInDim S4x2048x2048 (![] : Fin 0 → Fin S4x2048x2048.rank)
  shapeCasts_S4x2048x2048_S4x1024x2x1024x2 : S4x2048x2048.ShapeCasts S4x1024x2x1024x2
  reducesTo_S4x1024x2x1024x2_S4x1024x1024_d2_4 : S4x1024x2x1024x2.ReducesTo [2, 4] S4x1024x1024
  reducesTo_S4x1024x1024_S4_d1_2 : S4x1024x1024.ReducesTo [1, 2] S4
  shapeCasts_S4x2048x2048_S4x512x4x512x4 : S4x2048x2048.ShapeCasts S4x512x4x512x4
  reducesTo_S4x512x4x512x4_S4x512x512_d2_4 : S4x512x4x512x4.ReducesTo [2, 4] S4x512x512
  reducesTo_S4x512x512_S4_d1_2 : S4x512x512.ReducesTo [1, 2] S4
  shapeCasts_S4x2048x2048_S4x256x8x256x8 : S4x2048x2048.ShapeCasts S4x256x8x256x8
  reducesTo_S4x256x8x256x8_S4x256x256_d2_4 : S4x256x8x256x8.ReducesTo [2, 4] S4x256x256
  reducesTo_S4x256x256_S4_d1_2 : S4x256x256.ReducesTo [1, 2] S4
  bcast_S4_S4x1_0 : S4.BroadcastsInDim S4x1 (![0] : Fin 1 → Fin S4x1.rank)
  concatenates_S4x1_S4x1_S4x1_S4x3_d1 : Shape.Concatenates [S4x1, S4x1, S4x1] S4x3 1
  bcast_S_S3 : S_.BroadcastsInDim S3 (![] : Fin 0 → Fin S3.rank)
  bcast_S_S4x3 : S_.BroadcastsInDim S4x3 (![] : Fin 0 → Fin S4x3.rank)
  reducesTo_S3_S_d0 : S3.ReducesTo [0] S_
  reducesTo_S4x3_S4_d1 : S4x3.ReducesTo [1] S4
  bcast_S_S4x1 : S_.BroadcastsInDim S4x1 (![] : Fin 0 → Fin S4x1.rank)
  bcast_S4x1_S4x3_0_1 : S4x1.BroadcastsInDim S4x3 (![0, 1] : Fin 2 → Fin S4x3.rank)
  bcast_S3_S1x3_1 : S3.BroadcastsInDim S1x3 (![1] : Fin 1 → Fin S1x3.rank)
  bcast_S1x3_S4x3_0_1 : S1x3.BroadcastsInDim S4x3 (![0, 1] : Fin 2 → Fin S4x3.rank)
  bcast_S_S4 : S_.BroadcastsInDim S4 (![] : Fin 0 → Fin S4.rank)
  reducesTo_S4_S_d0 : S4.ReducesTo [0] S_

variable [Facts₀]

class Facts : Prop extends Facts₀ where

variable [Facts]
-- ==== Proof.BitsRegion.lean ====
/-
  The run of `Kernel`'s @main around its one pipelined region, for any float instance.

  @main is one constant, the region, then sixty-one host operations (the box counts, the logarithms and the
  least-squares slope). The region's grid has 4 × 8 points; at point (b, r) the body reads the block
  x[b, :, 256 r … 256 r + 255, :] of the argument, sums it over the eight heads, divides by eight, compares with
  one tenth and stores the 0/1 answer as the block out[b, 256 r … 256 r + 255, :]. The body also loads its output
  buffer once before overwriting it whole; nothing depends on that load.

  Proved here: what the output staging buffer holds after the body (`blockAfter`, the one store read back through
  its rectangle), the body's triple, the pipeline's proof data (`dats`), the body obligation at every grid point,
  the run of @main to the library's `FramePost` (every pipeline array at `Dat.arrAt`, every other unscoped buffer
  as the host operations after the region leave it), and from it the frame: the argument array ends as launched.
-/
import proofs.«118756_j85736137163440_1_alg».proof.Proof.Gen.Kernel.Launch
import proofs.«118756_j85736137163440_1_alg».proof.Proof.Gen.Kernel.Skeleton
import proofs.«118756_j85736137163440_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the one constant. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the constant, the region, and the region's continuation by the sixty-one later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch only the pipeline's two arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- Each later operation writes only its own result buffer, which is neither the argument nor the region's result. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes,
    StableHlo.reshape_writes, StableHlo.nary_writes, Finset.mem_singleton]
  repeat' apply And.intro
  all_goals (intro w; fin_cases w <;> exact StableHlo.devRef_ne_of_ne (by decide))
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-- The constant before the region does not write the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame from the frame run -/

/-- The argument is the input window's array: it ends at its contents at the region's entry, which are the launch
    contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The body's accesses -/

/-- The whole input block. -/
abbrev rIn : Rect S1x8x256x2048 := Rect.unit (s := S1x8x256x2048) ![0, 0, 0, 0] S1x8x256x2048.size inb_S1x8x256x2048_S1x8x256x2048_0_0_0_0
/-- The whole output block. -/
abbrev rOut : Rect S1x256x2048 := Rect.unit (s := S1x256x2048) ![0, 0, 0] S1x256x2048.size inb_S1x256x2048_S1x256x2048_0_0_0

/-- The output staging buffer after the body, from the input block: the one store, through the whole rectangle, of
    the thresholded head mean of what the one load of the input read. -/
def blockAfter (x0 : Vec F S1x8x256x2048 .f32) : Vec F S1x256x2048 .f32 :=
  View.canon [⟨rOut, k0_pay1 (View.ld x0 rIn)⟩]

/-- The store's rectangle is the whole buffer. -/
theorem cover_out (p0 : Vec F S1x256x2048 .f32) (y : S1x256x2048.Idx) :
    ∃ pc ∈ ([⟨rOut, p0⟩] : List (View.Piece (Elt F) S1x256x2048 .f32)), y ∈ pc.1.set :=
  View.cover_of_tiled [⟨rOut, p0⟩] S1x256x2048.size (by rfl) y

/-! ## The body's triple -/

set_option maxHeartbeats 1000000 in
/-- The body on whole staging memrefs, the input's at contents `x0` and the output's at anything, runs to the
    continuation with the input's as it was and the output's at `blockAfter x0`. -/
theorem sound_kernel (c : Dev nD) (E : Set ℕ) (i : grid0.Coords) (arg2 : Memref sig .tc .vmem S1x8x256x2048 .f32) (harg2 : arg2.IsWhole) (arg3 : Memref sig .tc .vmem S1x256x2048 .f32) (harg3 : arg3.IsWhole)
    (x0 : Vec F S1x8x256x2048 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (blockAfter x0)) -∗ K ⟨⟩))
      ⊢ wp frame (wpE (defs₀ (F := F)) Variants.none c none) E (cc0__binarize_kernel i arg2 harg2 arg3 harg3) K := by
  simp only [cc0__binarize_kernel_eq_skeleton]; unfold cc0__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-! ## The pipeline's proof data -/

/-- On core `c`: the arrays as the region finds them; after the body at point `t` the input's buffer at its block
    and the output's at `blockAfter` of that block; the invariant the scoped rest and the random-number register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blockAfter (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = blockAfter (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every final state has the pipeline's two arrays at what the
    library computes from the proof data and every other unscoped buffer as the later operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere, and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Region

end
-- ==== Proof.IdealRegion.lean ====
/-
  The run of `KernelIdeal`'s @main around its one pipelined region, for any float instance.

  @main is one constant, the region, then sixty-one host operations (the box counts, the logarithms and the
  least-squares slope). The region's grid has 4 × 8 points; at point (b, r) the body reads the block
  x[b, :, 256 r … 256 r + 255, :] of the argument, sums it over the eight heads, divides by eight, compares with
  one tenth and stores the 0/1 answer as the block out[b, 256 r … 256 r + 255, :]. The body also loads its output
  buffer once before overwriting it whole; nothing depends on that load.

  Proved here: what the output staging buffer holds after the body (`blockAfter`, the one store read back through
  its rectangle), the body's triple, the pipeline's proof data (`dats`), the body obligation at every grid point,
  the run of @main to the library's `FramePost` (every pipeline array at `Dat.arrAt`, every other unscoped buffer
  as the host operations after the region leave it), and from it the frame: the argument array ends as launched.
-/
import proofs.«118756_j85736137163440_1_alg».proof.Proof.Gen.KernelIdeal.Launch
import proofs.«118756_j85736137163440_1_alg».proof.Proof.Gen.KernelIdeal.Skeleton
import proofs.«118756_j85736137163440_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the one constant. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the constant, the region, and the region's continuation by the sixty-one later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch only the pipeline's two arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- Each later operation writes only its own result buffer, which is neither the argument nor the region's result. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes,
    StableHlo.reshape_writes, StableHlo.nary_writes, Finset.mem_singleton]
  repeat' apply And.intro
  all_goals (intro w; fin_cases w <;> exact StableHlo.devRef_ne_of_ne (by decide))
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-- The constant before the region does not write the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame from the frame run -/

/-- The argument is the input window's array: it ends at its contents at the region's entry, which are the launch
    contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The body's accesses -/

/-- The whole input block. -/
abbrev rIn : Rect S1x8x256x2048 := Rect.unit (s := S1x8x256x2048) ![0, 0, 0, 0] S1x8x256x2048.size inb_S1x8x256x2048_S1x8x256x2048_0_0_0_0
/-- The whole output block. -/
abbrev rOut : Rect S1x256x2048 := Rect.unit (s := S1x256x2048) ![0, 0, 0] S1x256x2048.size inb_S1x256x2048_S1x256x2048_0_0_0

/-- The output staging buffer after the body, from the input block: the one store, through the whole rectangle, of
    the thresholded head mean of what the one load of the input read. -/
def blockAfter (x0 : Vec F S1x8x256x2048 .f32) : Vec F S1x256x2048 .f32 :=
  View.canon [⟨rOut, k0_pay1 (View.ld x0 rIn)⟩]

/-- The store's rectangle is the whole buffer. -/
theorem cover_out (p0 : Vec F S1x256x2048 .f32) (y : S1x256x2048.Idx) :
    ∃ pc ∈ ([⟨rOut, p0⟩] : List (View.Piece (Elt F) S1x256x2048 .f32)), y ∈ pc.1.set :=
  View.cover_of_tiled [⟨rOut, p0⟩] S1x256x2048.size (by rfl) y

/-! ## The body's triple -/

set_option maxHeartbeats 1000000 in
/-- The body on whole staging memrefs, the input's at contents `x0` and the output's at anything, runs to the
    continuation with the input's as it was and the output's at `blockAfter x0`. -/
theorem sound_kernel (c : Dev nD) (E : Set ℕ) (i : grid0.Coords) (arg2 : Memref sig .tc .vmem S1x8x256x2048 .f32) (harg2 : arg2.IsWhole) (arg3 : Memref sig .tc .vmem S1x256x2048 .f32) (harg3 : arg3.IsWhole)
    (x0 : Vec F S1x8x256x2048 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (blockAfter x0)) -∗ K ⟨⟩))
      ⊢ wp frame (wpE (defs₀ (F := F)) Variants.none c none) E (cc0__binarize_kernel i arg2 harg2 arg3 harg3) K := by
  simp only [cc0__binarize_kernel_eq_skeleton]; unfold cc0__binarize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-! ## The pipeline's proof data -/

/-- On core `c`: the arrays as the region finds them; after the body at point `t` the input's buffer at its block
    and the output's at `blockAfter` of that block; the invariant the scoped rest and the random-number register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blockAfter (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = blockAfter (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every final state has the pipeline's two arrays at what the
    library computes from the proof data and every other unscoped buffer as the later operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere, and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Region

end
-- ==== Proof.RefRun.lean ====
/-
  The reference's run, read back.

  The reference's @main is a straight line of seventy-one host operations: a table of the three box sizes; the sum
  of the argument over its head axis started from 0, the quotient by 8, the comparison with one tenth and its
  conversion to 0/1 — the thresholded matrix, `main_v5` —; then the sixty-one operations of the box counts, the
  logarithms and the least-squares slope, which read only that matrix and the table. The list is cut there:
  `headOps` (ten operations) and `tailOps` (sixty-one).

  Proved: @main is the sequence of the whole list; every weakly fair execution terminates with every buffer at
  the fold of the operations' results over the launch contents; the fold over the whole list is the fold over the
  tail after the fold over the head; what the head leaves in the thresholded matrix, in the table and in the
  argument; and that the tail does not write the argument.
-/
import proofs.«118756_j85736137163440_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The first ten operations: up to the thresholded matrix. -/
abbrev headOps : List (HloOp τ sig (Elt F)) :=
  [ StableHlo.nullary main_cst (fun i => FloatOps.ofBits .f32 (lit0 (S3.rowMajor i))),
    StableHlo.nullary main_cst_0 (constant S_ .f32 0x00000000#32),
    StableHlo.binary main_arg0 main_cst_0 main_v0 ((fun x v => Host.reduceAdd x v reducesTo_S4x8x2048x2048_S4x2048x2048_d1 h_S_) : (⟨S4x8x2048x2048, .f32⟩ : BufTy).Contents (Elt F) → (⟨S_, .f32⟩ : BufTy).Contents (Elt F) → (⟨S4x2048x2048, .f32⟩ : BufTy).Contents (Elt F)),
    StableHlo.nullary main_cst_1 (constant S_ .f32 0x41000000#32),
    StableHlo.unary main_cst_1 main_v1 (broadcastInDim S4x2048x2048 ![] bcast_S_S4x2048x2048 : (⟨S_, .f32⟩ : BufTy).Contents (Elt F) → (⟨S4x2048x2048, .f32⟩ : BufTy).Contents (Elt F)),
    StableHlo.binary main_v0 main_v1 main_v2 (Host.divf : (⟨S4x2048x2048, .f32⟩ : BufTy).Contents (Elt F) → (⟨S4x2048x2048, .f32⟩ : BufTy).Contents (Elt F) → (⟨S4x2048x2048, .f32⟩ : BufTy).Contents (Elt F)),
    StableHlo.nullary main_cst_2 (constant S_ .f32 0x3DCCCCCD#32),
    StableHlo.unary main_cst_2 main_v3 (broadcastInDim S4x2048x2048 ![] bcast_S_S4x2048x2048 : (⟨S_, .f32⟩ : BufTy).Contents (Elt F) → (⟨S4x2048x2048, .f32⟩ : BufTy).Contents (Elt F)),
    StableHlo.binary main_v2 main_v3 main_v4 (cmpf .ogt : (⟨S4x2048x2048, .f32⟩ : BufTy).Contents (Elt F) → (⟨S4x2048x2048, .f32⟩ : BufTy).Contents (Elt F) → (⟨S4x2048x2048, .i1⟩ : BufTy).Contents (Elt F)),
    StableHlo.unary main_v4 main_v5 (uitofp .f32 : (⟨S4x2048x2048, .i1⟩ : BufTy).Contents (Elt F) → (⟨S4x2048x2048, .f32⟩ : BufTy).Contents (Elt F)) ]

/-- The last sixty-one: the box counts, the logarithms, the slope, the loss. -/
abbrev tailOps : List (HloOp τ sig (Elt F)) :=
  [ StableHlo.reshape main_v5 main_v6 rfl shapeCasts_S4x2048x2048_S4x1024x2x1024x2,
    StableHlo.nullary main_cst_3 (constant S_ .f32 0xFF800000#32),
    StableHlo.binary main_v6 main_cst_3 main_v7 ((fun x v => Host.reduce FloatOps.maximumf x v reducesTo_S4x1024x2x1024x2_S4x1024x1024_d2_4 h_S_) : (⟨S4x1024x2x1024x2, .f32⟩ : BufTy).Contents (Elt F) → (⟨S_, .f32⟩ : BufTy).Contents (Elt F) → (⟨S4x1024x1024, .f32⟩ : BufTy).Contents (Elt F)),
    StableHlo.nullary main_cst_4 (constant S_ .f32 0x00000000#32),
    StableHlo.binary main_v7 main_cst_4 main_v8 ((fun x v => Host.reduceAdd x v reducesTo_S4x1024x1024_S4_d1_2 h_S_) : (⟨S4x1024x1024, .f32⟩ : BufTy).Contents (Elt F) → (⟨S_, .f32⟩ : BufTy).Contents (Elt F) → (⟨S4, .f32⟩ : BufTy).Contents (Elt F)),
    StableHlo.reshape main_v5 main_v9 rfl shapeCasts_S4x2048x2048_S4x512x4x512x4,
    StableHlo.nullary main_cst_5 (constant S_ .f32 0xFF800000#32),
    StableHlo.binary main_v9 main_cst_5 main_v10 ((fun x v => Host.reduce FloatOps.maximumf x v reducesTo_S4x512x4x512x4_S4x512x512_d2_4 h_S_) : (⟨S4x512x4x512x4, .f32⟩ : BufTy).Contents (Elt F) → (⟨S_, .f32⟩ : BufTy).Contents (Elt F) → (⟨S4x512x512, .f32⟩ : BufTy).Contents (Elt F)),
    StableHlo.nullary main_cst_6 (constant S_ .f32 0x00000000#32),
    StableHlo.binary main_v10 main_cst_6 main_v11 ((fun x v => Host.reduceAdd x v reducesTo_S4x512x512_S4_d1_2 h_S_) : (⟨S4x512x512, .f32⟩ : BufTy).Contents (Elt F) → (⟨S_, .f32⟩ : BufTy).Contents (Elt F) → (⟨S4, .f32⟩ : BufTy).Contents (Elt F)),
    StableHlo.reshape main_v5 main_v12 rfl shapeCasts_S4x2048x2048_S4x256x8x256x8,
    StableHlo.nullary main_cst_7 (constant S_ .f32 0xFF800000#32),
    StableHlo.binary main_v12 main_cst_7 main_v13 ((fun x v => Host.reduce FloatOps.maximumf x v reducesTo_S4x256x8x256x8_S4x256x256_d2_4 h_S_) : (⟨S4x256x8x256x8, .f32⟩ : BufTy).Contents (Elt F) → (⟨S_, .f32⟩ : BufTy).Contents (Elt F) → (⟨S4x256x256, .f32⟩ : BufTy).Contents (Elt F)),
    StableHlo.nullary main_cst_8 (constant S_ .f32 0x00000000#32),
    StableHlo.binary main_v13 main_cst_8 main_v14 ((fun x v => Host.reduceAdd x v reducesTo_S4x256x256_S4_d1_2 h_S_) : (⟨S4x256x256, .f32⟩ : BufTy).Contents (Elt F) → (⟨S_, .f32⟩ : BufTy).Contents (Elt F) → (⟨S4, .f32⟩ : BufTy).Contents (Elt F)),
    StableHlo.unary main_v8 main_v15 (broadcastInDim S4x1 ![0] bcast_S4_S4x1_0 : (⟨S4, .f32⟩ : BufTy).Contents (Elt F) → (⟨S4x1, .f32⟩ : BufTy).Contents (Elt F)),
    StableHlo.unary main_v11 main_v16 (broadcastInDim S4x1 ![0] bcast_S4_S4x1_0 : (⟨S4, .f32⟩ : BufTy).Contents (Elt F) → (⟨S4x1, .f32⟩ : BufTy).Contents (Elt F)),
    StableHlo.unary main_v14 main_v17 (broadcastInDim S4x1 ![0] bcast_S4_S4x1_0 : (⟨S4, .f32⟩ : BufTy).Contents (Elt F) → (⟨S4x1, .f32⟩ : BufTy).Contents (Elt F)),
    StableHlo.nary ![main_v15, main_v16, main_v17] main_v18 (fun u => concatenate S4x3 1 [⟨S4x1, u 0⟩, ⟨S4x1, u 1⟩, ⟨S4x1, u 2⟩] concatenates_S4x1_S4x1_S4x1_S4x3_d1),
    StableHlo.nullary main_cst_9 (constant S_ .f32 0x3F800000#32),
    StableHlo.unary main_cst_9 main_v19 (broadcastInDim S3 ![] bcast_S_S3 : (⟨S_, .f32⟩ : BufTy).Contents (Elt F) → (⟨S3, .f32⟩ : BufTy).Contents (Elt F)),
    StableHlo.binary main_v19 main_cst main_v20 (Host.divf : (⟨S3, .f32⟩ : BufTy).Contents (Elt F) → (⟨S3, .f32⟩ : BufTy).Contents (Elt F) → (⟨S3, .f32⟩ : BufTy).Contents (Elt F)),
    StableHlo.unary main_v20 main_v21 (Host.log : (⟨S3, .f32⟩ : BufTy).Contents (Elt F) → (⟨S3, .f32⟩ : BufTy).Contents (Elt F)),
    StableHlo.nullary main_cst_10 (constant S_ .f32 0x3F800000#32),
    StableHlo.unary main_cst_10 main_v22 (broadcastInDim S4x3 ![] bcast_S_S4x3 : (⟨S_, .f32⟩ : BufTy).Contents (Elt F) → (⟨S4x3, .f32⟩ : BufTy).Contents (Elt F)),
    StableHlo.binary main_v18 main_v22 main_v23 (addf : (⟨S4x3, .f32⟩ : BufTy).Contents (Elt F) → (⟨S4x3, .f32⟩ : BufTy).Contents (Elt F) → (⟨S4x3, .f32⟩ : BufTy).Contents (Elt F)),
    StableHlo.unary main_v23 main_v24 (Host.log : (⟨S4x3, .f32⟩ : BufTy).Contents (Elt F) → (⟨S4x3, .f32⟩ : BufTy).Contents (Elt F)),
    StableHlo.nullary main_cst_11 (constant S_ .f32 0x00000000#32),
    StableHlo.binary main_v21 main_cst_11 main_v25 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.nullary main_cst_12 (constant S_ .f32 0x40400000#32),
    StableHlo.binary main_v25 main_cst_12 main_v26 (Host.divf : (⟨S_, .f32⟩ : BufTy).Contents (Elt F) → (⟨S_, .f32⟩ : BufTy).Contents (Elt F) → (⟨S_, .f32⟩ : BufTy).Contents (Elt F)),
    StableHlo.unary main_v26 main_v27 (broadcastInDim S3 ![] bcast_S_S3 : (⟨S_, .f32⟩ : BufTy).Contents (Elt F) → (⟨S3, .f32⟩ : BufTy).Contents (Elt F)),
    StableHlo.binary main_v21 main_v27 main_v28 (subf : (⟨S3, .f32⟩ : BufTy).Contents (Elt F) → (⟨S3, .f32⟩ : BufTy).Contents (Elt F) → (⟨S3, .f32⟩ : BufTy).Contents (Elt F)),
    StableHlo.nullary main_cst_13 (constant S_ .f32 0x00000000#32),
    StableHlo.binary main_v24 main_cst_13 main_v29 ((fun x v => Host.reduceAdd x v reducesTo_S4x3_S4_d1 h_S_) : (⟨S4x3, .f32⟩ : BufTy).Contents (Elt F) → (⟨S_, .f32⟩ : BufTy).Contents (Elt F) → (⟨S4, .f32⟩ : BufTy).Contents (Elt F)),
    StableHlo.unary main_v29 main_v30 (broadcastInDim S4x1 ![0] bcast_S4_S4x1_0 : (⟨S4, .f32⟩ : BufTy).Contents (Elt F) → (⟨S4x1, .f32⟩ : BufTy).Contents (Elt F)),
    StableHlo.nullary main_cst_14 (constant S_ .f32 0x40400000#32),
    StableHlo.unary main_cst_14 main_v31 (broadcastInDim S4x1 ![] bcast_S_S4x1 : (⟨S_, .f32⟩ : BufTy).Contents (Elt F) → (⟨S4x1, .f32⟩ : BufTy).Contents (Elt F)),
    StableHlo.binary main_v30 main_v31 main_v32 (Host.divf : (⟨S4x1, .f32⟩ : BufTy).Contents (Elt F) → (⟨S4x1, .f32⟩ : BufTy).Contents (Elt F) → (⟨S4x1, .f32⟩ : BufTy).Contents (Elt F)),
    StableHlo.unary main_v32 main_v33 (broadcastInDim S4x3 ![0, 1] bcast_S4x1_S4x3_0_1 : (⟨S4x1, .f32⟩ : BufTy).Contents (Elt F) → (⟨S4x3, .f32⟩ : BufTy).Contents (Elt F)),
    StableHlo.binary main_v24 main_v33 main_v34 (subf : (⟨S4x3, .f32⟩ : BufTy).Contents (Elt F) → (⟨S4x3, .f32⟩ : BufTy).Contents (Elt F) → (⟨S4x3, .f32⟩ : BufTy).Contents (Elt F)),
    StableHlo.unary main_v28 main_v35 (broadcastInDim S1x3 ![1] bcast_S3_S1x3_1 : (⟨S3, .f32⟩ : BufTy).Contents (Elt F) → (⟨S1x3, .f32⟩ : BufTy).Contents (Elt F)),
    StableHlo.unary main_v35 main_v36 (broadcastInDim S4x3 ![0, 1] bcast_S1x3_S4x3_0_1 : (⟨S1x3, .f32⟩ : BufTy).Contents (Elt F) → (⟨S4x3, .f32⟩ : BufTy).Contents (Elt F)),
    StableHlo.binary main_v36 main_v34 main_v37 (mulf : (⟨S4x3, .f32⟩ : BufTy).Contents (Elt F) → (⟨S4x3, .f32⟩ : BufTy).Contents (Elt F) → (⟨S4x3, .f32⟩ : BufTy).Contents (Elt F)),
    StableHlo.nullary main_cst_15 (constant S_ .f32 0x00000000#32),
    StableHlo.binary main_v37 main_cst_15 main_v38 ((fun x v => Host.reduceAdd x v reducesTo_S4x3_S4_d1 h_S_) : (⟨S4x3, .f32⟩ : BufTy).Contents (Elt F) → (⟨S_, .f32⟩ : BufTy).Contents (Elt F) → (⟨S4, .f32⟩ : BufTy).Contents (Elt F)),
    StableHlo.binary main_v28 main_v28 main_v39 (mulf : (⟨S3, .f32⟩ : BufTy).Contents (Elt F) → (⟨S3, .f32⟩ : BufTy).Contents (Elt F) → (⟨S3, .f32⟩ : BufTy).Contents (Elt F)),
    StableHlo.nullary main_cst_16 (constant S_ .f32 0x00000000#32),
    StableHlo.binary main_v39 main_cst_16 main_v40 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.unary main_v40 main_v41 (broadcastInDim S4 ![] bcast_S_S4 : (⟨S_, .f32⟩ : BufTy).Contents (Elt F) → (⟨S4, .f32⟩ : BufTy).Contents (Elt F)),
    StableHlo.binary main_v38 main_v41 main_v42 (Host.divf : (⟨S4, .f32⟩ : BufTy).Contents (Elt F) → (⟨S4, .f32⟩ : BufTy).Contents (Elt F) → (⟨S4, .f32⟩ : BufTy).Contents (Elt F)),
    StableHlo.nullary main_cst_17 (constant S_ .f32 0x40000000#32),
    StableHlo.unary main_cst_17 main_v43 (broadcastInDim S4 ![] bcast_S_S4 : (⟨S_, .f32⟩ : BufTy).Contents (Elt F) → (⟨S4, .f32⟩ : BufTy).Contents (Elt F)),
    StableHlo.binary main_v42 main_v43 main_v44 (subf : (⟨S4, .f32⟩ : BufTy).Contents (Elt F) → (⟨S4, .f32⟩ : BufTy).Contents (Elt F) → (⟨S4, .f32⟩ : BufTy).Contents (Elt F)),
    StableHlo.binary main_v44 main_v44 main_v45 (mulf : (⟨S4, .f32⟩ : BufTy).Contents (Elt F) → (⟨S4, .f32⟩ : BufTy).Contents (Elt F) → (⟨S4, .f32⟩ : BufTy).Contents (Elt F)),
    StableHlo.nullary main_cst_18 (constant S_ .f32 0x00000000#32),
    StableHlo.binary main_v45 main_cst_18 main_v46 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_19 (constant S_ .f32 0x40800000#32),
    StableHlo.binary main_v46 main_cst_19 main_v47 (Host.divf : (⟨S_, .f32⟩ : BufTy).Contents (Elt F) → (⟨S_, .f32⟩ : BufTy).Contents (Elt F) → (⟨S_, .f32⟩ : BufTy).Contents (Elt F)),
    StableHlo.nullary main_cst_20 (constant S_ .f32 0x3BA3D70A#32),
    StableHlo.binary main_cst_20 main_v47 main_v48 (mulf : (⟨S_, .f32⟩ : BufTy).Contents (Elt F) → (⟨S_, .f32⟩ : BufTy).Contents (Elt F) → (⟨S_, .f32⟩ : BufTy).Contents (Elt F)) ]

/-- @main's seventy-one operations, in order. -/
abbrev ops : List (HloOp τ sig (Elt F)) :=
  [ StableHlo.nullary main_cst (fun i => FloatOps.ofBits .f32 (lit0 (S3.rowMajor i))),
    StableHlo.nullary main_cst_0 (constant S_ .f32 0x00000000#32),
    StableHlo.binary main_arg0 main_cst_0 main_v0 ((fun x v => Host.reduceAdd x v reducesTo_S4x8x2048x2048_S4x2048x2048_d1 h_S_) : (⟨S4x8x2048x2048, .f32⟩ : BufTy).Contents (Elt F) → (⟨S_, .f32⟩ : BufTy).Contents (Elt F) → (⟨S4x2048x2048, .f32⟩ : BufTy).Contents (Elt F)),
    StableHlo.nullary main_cst_1 (constant S_ .f32 0x41000000#32),
    StableHlo.unary main_cst_1 main_v1 (broadcastInDim S4x2048x2048 ![] bcast_S_S4x2048x2048 : (⟨S_, .f32⟩ : BufTy).Contents (Elt F) → (⟨S4x2048x2048, .f32⟩ : BufTy).Contents (Elt F)),
    StableHlo.binary main_v0 main_v1 main_v2 (Host.divf : (⟨S4x2048x2048, .f32⟩ : BufTy).Contents (Elt F) → (⟨S4x2048x2048, .f32⟩ : BufTy).Contents (Elt F) → (⟨S4x2048x2048, .f32⟩ : BufTy).Contents (Elt F)),
    StableHlo.nullary main_cst_2 (constant S_ .f32 0x3DCCCCCD#32),
    StableHlo.unary main_cst_2 main_v3 (broadcastInDim S4x2048x2048 ![] bcast_S_S4x2048x2048 : (⟨S_, .f32⟩ : BufTy).Contents (Elt F) → (⟨S4x2048x2048, .f32⟩ : BufTy).Contents (Elt F)),
    StableHlo.binary main_v2 main_v3 main_v4 (cmpf .ogt : (⟨S4x2048x2048, .f32⟩ : BufTy).Contents (Elt F) → (⟨S4x2048x2048, .f32⟩ : BufTy).Contents (Elt F) → (⟨S4x2048x2048, .i1⟩ : BufTy).Contents (Elt F)),
    StableHlo.unary main_v4 main_v5 (uitofp .f32 : (⟨S4x2048x2048, .i1⟩ : BufTy).Contents (Elt F) → (⟨S4x2048x2048, .f32⟩ : BufTy).Contents (Elt F)),
    StableHlo.reshape main_v5 main_v6 rfl shapeCasts_S4x2048x2048_S4x1024x2x1024x2,
    StableHlo.nullary main_cst_3 (constant S_ .f32 0xFF800000#32),
    StableHlo.binary main_v6 main_cst_3 main_v7 ((fun x v => Host.reduce FloatOps.maximumf x v reducesTo_S4x1024x2x1024x2_S4x1024x1024_d2_4 h_S_) : (⟨S4x1024x2x1024x2, .f32⟩ : BufTy).Contents (Elt F) → (⟨S_, .f32⟩ : BufTy).Contents (Elt F) → (⟨S4x1024x1024, .f32⟩ : BufTy).Contents (Elt F)),
    StableHlo.nullary main_cst_4 (constant S_ .f32 0x00000000#32),
    StableHlo.binary main_v7 main_cst_4 main_v8 ((fun x v => Host.reduceAdd x v reducesTo_S4x1024x1024_S4_d1_2 h_S_) : (⟨S4x1024x1024, .f32⟩ : BufTy).Contents (Elt F) → (⟨S_, .f32⟩ : BufTy).Contents (Elt F) → (⟨S4, .f32⟩ : BufTy).Contents (Elt F)),
    StableHlo.reshape main_v5 main_v9 rfl shapeCasts_S4x2048x2048_S4x512x4x512x4,
    StableHlo.nullary main_cst_5 (constant S_ .f32 0xFF800000#32),
    StableHlo.binary main_v9 main_cst_5 main_v10 ((fun x v => Host.reduce FloatOps.maximumf x v reducesTo_S4x512x4x512x4_S4x512x512_d2_4 h_S_) : (⟨S4x512x4x512x4, .f32⟩ : BufTy).Contents (Elt F) → (⟨S_, .f32⟩ : BufTy).Contents (Elt F) → (⟨S4x512x512, .f32⟩ : BufTy).Contents (Elt F)),
    StableHlo.nullary main_cst_6 (constant S_ .f32 0x00000000#32),
    StableHlo.binary main_v10 main_cst_6 main_v11 ((fun x v => Host.reduceAdd x v reducesTo_S4x512x512_S4_d1_2 h_S_) : (⟨S4x512x512, .f32⟩ : BufTy).Contents (Elt F) → (⟨S_, .f32⟩ : BufTy).Contents (Elt F) → (⟨S4, .f32⟩ : BufTy).Contents (Elt F)),
    StableHlo.reshape main_v5 main_v12 rfl shapeCasts_S4x2048x2048_S4x256x8x256x8,
    StableHlo.nullary main_cst_7 (constant S_ .f32 0xFF800000#32),
    StableHlo.binary main_v12 main_cst_7 main_v13 ((fun x v => Host.reduce FloatOps.maximumf x v reducesTo_S4x256x8x256x8_S4x256x256_d2_4 h_S_) : (⟨S4x256x8x256x8, .f32⟩ : BufTy).Contents (Elt F) → (⟨S_, .f32⟩ : BufTy).Contents (Elt F) → (⟨S4x256x256, .f32⟩ : BufTy).Contents (Elt F)),
    StableHlo.nullary main_cst_8 (constant S_ .f32 0x00000000#32),
    StableHlo.binary main_v13 main_cst_8 main_v14 ((fun x v => Host.reduceAdd x v reducesTo_S4x256x256_S4_d1_2 h_S_) : (⟨S4x256x256, .f32⟩ : BufTy).Contents (Elt F) → (⟨S_, .f32⟩ : BufTy).Contents (Elt F) → (⟨S4, .f32⟩ : BufTy).Contents (Elt F)),
    StableHlo.unary main_v8 main_v15 (broadcastInDim S4x1 ![0] bcast_S4_S4x1_0 : (⟨S4, .f32⟩ : BufTy).Contents (Elt F) → (⟨S4x1, .f32⟩ : BufTy).Contents (Elt F)),
    StableHlo.unary main_v11 main_v16 (broadcastInDim S4x1 ![0] bcast_S4_S4x1_0 : (⟨S4, .f32⟩ : BufTy).Contents (Elt F) → (⟨S4x1, .f32⟩ : BufTy).Contents (Elt F)),
    StableHlo.unary main_v14 main_v17 (broadcastInDim S4x1 ![0] bcast_S4_S4x1_0 : (⟨S4, .f32⟩ : BufTy).Contents (Elt F) → (⟨S4x1, .f32⟩ : BufTy).Contents (Elt F)),
    StableHlo.nary ![main_v15, main_v16, main_v17] main_v18 (fun u => concatenate S4x3 1 [⟨S4x1, u 0⟩, ⟨S4x1, u 1⟩, ⟨S4x1, u 2⟩] concatenates_S4x1_S4x1_S4x1_S4x3_d1),
    StableHlo.nullary main_cst_9 (constant S_ .f32 0x3F800000#32),
    StableHlo.unary main_cst_9 main_v19 (broadcastInDim S3 ![] bcast_S_S3 : (⟨S_, .f32⟩ : BufTy).Contents (Elt F) → (⟨S3, .f32⟩ : BufTy).Contents (Elt F)),
    StableHlo.binary main_v19 main_cst main_v20 (Host.divf : (⟨S3, .f32⟩ : BufTy).Contents (Elt F) → (⟨S3, .f32⟩ : BufTy).Contents (Elt F) → (⟨S3, .f32⟩ : BufTy).Contents (Elt F)),
    StableHlo.unary main_v20 main_v21 (Host.log : (⟨S3, .f32⟩ : BufTy).Contents (Elt F) → (⟨S3, .f32⟩ : BufTy).Contents (Elt F)),
    StableHlo.nullary main_cst_10 (constant S_ .f32 0x3F800000#32),
    StableHlo.unary main_cst_10 main_v22 (broadcastInDim S4x3 ![] bcast_S_S4x3 : (⟨S_, .f32⟩ : BufTy).Contents (Elt F) → (⟨S4x3, .f32⟩ : BufTy).Contents (Elt F)),
    StableHlo.binary main_v18 main_v22 main_v23 (addf : (⟨S4x3, .f32⟩ : BufTy).Contents (Elt F) → (⟨S4x3, .f32⟩ : BufTy).Contents (Elt F) → (⟨S4x3, .f32⟩ : BufTy).Contents (Elt F)),
    StableHlo.unary main_v23 main_v24 (Host.log : (⟨S4x3, .f32⟩ : BufTy).Contents (Elt F) → (⟨S4x3, .f32⟩ : BufTy).Contents (Elt F)),
    StableHlo.nullary main_cst_11 (constant S_ .f32 0x00000000#32),
    StableHlo.binary main_v21 main_cst_11 main_v25 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.nullary main_cst_12 (constant S_ .f32 0x40400000#32),
    StableHlo.binary main_v25 main_cst_12 main_v26 (Host.divf : (⟨S_, .f32⟩ : BufTy).Contents (Elt F) → (⟨S_, .f32⟩ : BufTy).Contents (Elt F) → (⟨S_, .f32⟩ : BufTy).Contents (Elt F)),
    StableHlo.unary main_v26 main_v27 (broadcastInDim S3 ![] bcast_S_S3 : (⟨S_, .f32⟩ : BufTy).Contents (Elt F) → (⟨S3, .f32⟩ : BufTy).Contents (Elt F)),
    StableHlo.binary main_v21 main_v27 main_v28 (subf : (⟨S3, .f32⟩ : BufTy).Contents (Elt F) → (⟨S3, .f32⟩ : BufTy).Contents (Elt F) → (⟨S3, .f32⟩ : BufTy).Contents (Elt F)),
    StableHlo.nullary main_cst_13 (constant S_ .f32 0x00000000#32),
    StableHlo.binary main_v24 main_cst_13 main_v29 ((fun x v => Host.reduceAdd x v reducesTo_S4x3_S4_d1 h_S_) : (⟨S4x3, .f32⟩ : BufTy).Contents (Elt F) → (⟨S_, .f32⟩ : BufTy).Contents (Elt F) → (⟨S4, .f32⟩ : BufTy).Contents (Elt F)),
    StableHlo.unary main_v29 main_v30 (broadcastInDim S4x1 ![0] bcast_S4_S4x1_0 : (⟨S4, .f32⟩ : BufTy).Contents (Elt F) → (⟨S4x1, .f32⟩ : BufTy).Contents (Elt F)),
    StableHlo.nullary main_cst_14 (constant S_ .f32 0x40400000#32),
    StableHlo.unary main_cst_14 main_v31 (broadcastInDim S4x1 ![] bcast_S_S4x1 : (⟨S_, .f32⟩ : BufTy).Contents (Elt F) → (⟨S4x1, .f32⟩ : BufTy).Contents (Elt F)),
    StableHlo.binary main_v30 main_v31 main_v32 (Host.divf : (⟨S4x1, .f32⟩ : BufTy).Contents (Elt F) → (⟨S4x1, .f32⟩ : BufTy).Contents (Elt F) → (⟨S4x1, .f32⟩ : BufTy).Contents (Elt F)),
    StableHlo.unary main_v32 main_v33 (broadcastInDim S4x3 ![0, 1] bcast_S4x1_S4x3_0_1 : (⟨S4x1, .f32⟩ : BufTy).Contents (Elt F) → (⟨S4x3, .f32⟩ : BufTy).Contents (Elt F)),
    StableHlo.binary main_v24 main_v33 main_v34 (subf : (⟨S4x3, .f32⟩ : BufTy).Contents (Elt F) → (⟨S4x3, .f32⟩ : BufTy).Contents (Elt F) → (⟨S4x3, .f32⟩ : BufTy).Contents (Elt F)),
    StableHlo.unary main_v28 main_v35 (broadcastInDim S1x3 ![1] bcast_S3_S1x3_1 : (⟨S3, .f32⟩ : BufTy).Contents (Elt F) → (⟨S1x3, .f32⟩ : BufTy).Contents (Elt F)),
    StableHlo.unary main_v35 main_v36 (broadcastInDim S4x3 ![0, 1] bcast_S1x3_S4x3_0_1 : (⟨S1x3, .f32⟩ : BufTy).Contents (Elt F) → (⟨S4x3, .f32⟩ : BufTy).Contents (Elt F)),
    StableHlo.binary main_v36 main_v34 main_v37 (mulf : (⟨S4x3, .f32⟩ : BufTy).Contents (Elt F) → (⟨S4x3, .f32⟩ : BufTy).Contents (Elt F) → (⟨S4x3, .f32⟩ : BufTy).Contents (Elt F)),
    StableHlo.nullary main_cst_15 (constant S_ .f32 0x00000000#32),
    StableHlo.binary main_v37 main_cst_15 main_v38 ((fun x v => Host.reduceAdd x v reducesTo_S4x3_S4_d1 h_S_) : (⟨S4x3, .f32⟩ : BufTy).Contents (Elt F) → (⟨S_, .f32⟩ : BufTy).Contents (Elt F) → (⟨S4, .f32⟩ : BufTy).Contents (Elt F)),
    StableHlo.binary main_v28 main_v28 main_v39 (mulf : (⟨S3, .f32⟩ : BufTy).Contents (Elt F) → (⟨S3, .f32⟩ : BufTy).Contents (Elt F) → (⟨S3, .f32⟩ : BufTy).Contents (Elt F)),
    StableHlo.nullary main_cst_16 (constant S_ .f32 0x00000000#32),
    StableHlo.binary main_v39 main_cst_16 main_v40 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.unary main_v40 main_v41 (broadcastInDim S4 ![] bcast_S_S4 : (⟨S_, .f32⟩ : BufTy).Contents (Elt F) → (⟨S4, .f32⟩ : BufTy).Contents (Elt F)),
    StableHlo.binary main_v38 main_v41 main_v42 (Host.divf : (⟨S4, .f32⟩ : BufTy).Contents (Elt F) → (⟨S4, .f32⟩ : BufTy).Contents (Elt F) → (⟨S4, .f32⟩ : BufTy).Contents (Elt F)),
    StableHlo.nullary main_cst_17 (constant S_ .f32 0x40000000#32),
    StableHlo.unary main_cst_17 main_v43 (broadcastInDim S4 ![] bcast_S_S4 : (⟨S_, .f32⟩ : BufTy).Contents (Elt F) → (⟨S4, .f32⟩ : BufTy).Contents (Elt F)),
    StableHlo.binary main_v42 main_v43 main_v44 (subf : (⟨S4, .f32⟩ : BufTy).Contents (Elt F) → (⟨S4, .f32⟩ : BufTy).Contents (Elt F) → (⟨S4, .f32⟩ : BufTy).Contents (Elt F)),
    StableHlo.binary main_v44 main_v44 main_v45 (mulf : (⟨S4, .f32⟩ : BufTy).Contents (Elt F) → (⟨S4, .f32⟩ : BufTy).Contents (Elt F) → (⟨S4, .f32⟩ : BufTy).Contents (Elt F)),
    StableHlo.nullary main_cst_18 (constant S_ .f32 0x00000000#32),
    StableHlo.binary main_v45 main_cst_18 main_v46 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_19 (constant S_ .f32 0x40800000#32),
    StableHlo.binary main_v46 main_cst_19 main_v47 (Host.divf : (⟨S_, .f32⟩ : BufTy).Contents (Elt F) → (⟨S_, .f32⟩ : BufTy).Contents (Elt F) → (⟨S_, .f32⟩ : BufTy).Contents (Elt F)),
    StableHlo.nullary main_cst_20 (constant S_ .f32 0x3BA3D70A#32),
    StableHlo.binary main_cst_20 main_v47 main_v48 (mulf : (⟨S_, .f32⟩ : BufTy).Contents (Elt F) → (⟨S_, .f32⟩ : BufTy).Contents (Elt F) → (⟨S_, .f32⟩ : BufTy).Contents (Elt F)) ]

theorem ops_eq : (ops : List (HloOp τ sig (Elt F))) = headOps ++ tailOps := rfl

set_option maxRecDepth 65536 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., binary_bufs_sub .., nullary_bufs_sub .., unary_bufs_sub .., binary_bufs_sub .., nullary_bufs_sub .., unary_bufs_sub .., binary_bufs_sub .., unary_bufs_sub .., reshape_bufs_sub .., nullary_bufs_sub .., binary_bufs_sub .., nullary_bufs_sub .., binary_bufs_sub .., reshape_bufs_sub .., nullary_bufs_sub .., binary_bufs_sub .., nullary_bufs_sub .., binary_bufs_sub .., reshape_bufs_sub .., nullary_bufs_sub .., binary_bufs_sub .., nullary_bufs_sub .., binary_bufs_sub .., unary_bufs_sub .., unary_bufs_sub .., unary_bufs_sub .., nary_bufs_sub .., nullary_bufs_sub .., unary_bufs_sub .., binary_bufs_sub .., unary_bufs_sub .., nullary_bufs_sub .., unary_bufs_sub .., binary_bufs_sub .., unary_bufs_sub .., nullary_bufs_sub .., binary_bufs_sub .., nullary_bufs_sub .., binary_bufs_sub .., unary_bufs_sub .., binary_bufs_sub .., nullary_bufs_sub .., binary_bufs_sub .., unary_bufs_sub .., nullary_bufs_sub .., unary_bufs_sub .., binary_bufs_sub .., unary_bufs_sub .., binary_bufs_sub .., unary_bufs_sub .., unary_bufs_sub .., binary_bufs_sub .., nullary_bufs_sub .., binary_bufs_sub .., binary_bufs_sub .., nullary_bufs_sub .., binary_bufs_sub .., unary_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub ..⟩

/-- The fold over a list cut in two is the fold over the second part after the fold over the first. -/
theorem after_append (a b : List (HloOp τ sig (Elt F))) (V : Valuation τ sig (Elt F)) :
    after (a ++ b) V = after b (after a V) := by
  induction a generalizing V with
  | nil => rfl
  | cons op a ih => exact ih _

/-- Every weakly fair execution of @main terminates, and every final state has each buffer at the tail's fold
    over the head's fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after tailOps (after headOps (launchContents m d)) (Proc.devRef .tc b) :=
  (θ_run defs _ _).mono (fun _ h d b => (h d b).trans (by rw [ops_eq, after_append]))
    (run_seq scopedRefs_eq scopedSems_eq defs main (fun _ => ops) main_eq (fun _ => ops_sub) m ρ)

/-- The thresholded head mean as the reference spells it, as a function of the argument's contents. -/
def thresholded (x : FVec F S4x8x2048x2048 .f32) : FVec F S4x2048x2048 .f32 :=
  uitofp .f32 (cmpf .ogt (Host.divf (Host.reduceAdd x (constant S_ .f32 0x00000000#32) reducesTo_S4x8x2048x2048_S4x2048x2048_d1 h_S_)
      (broadcastInDim S4x2048x2048 ![] bcast_S_S4x2048x2048 (constant S_ .f32 0x41000000#32)))
    (broadcastInDim S4x2048x2048 ![] bcast_S_S4x2048x2048 (constant S_ .f32 0x3DCCCCCD#32)))

/-- After the head the matrix buffer holds the thresholded head mean of the argument. -/
theorem head_matrix (W : Valuation τ sig (Elt F)) :
    after headOps W (Proc.devRef .tc main_v5) = thresholded (W (Proc.devRef .tc main_arg0)) := by
  unfold thresholded
  after_results

/-- After the head the table buffer holds the three box sizes. -/
theorem head_table (W : Valuation τ sig (Elt F)) :
    after headOps W (Proc.devRef .tc main_cst) = fun i => FloatOps.ofBits .f32 (lit0 (S3.rowMajor i)) := by
  after_results
  rfl

/-- The head does not write the argument. -/
theorem head_arg (W : Valuation τ sig (Elt F)) :
    after headOps W (Proc.devRef .tc main_arg0) = W (Proc.devRef .tc main_arg0) := by
  after_results

/-- Nor does the tail. -/
theorem tail_arg (W : Valuation τ sig (Elt F)) :
    after tailOps W (Proc.devRef .tc main_arg0) = W (Proc.devRef .tc main_arg0) := by
  after_results_simp

end Cert.ReferenceIdeal.HostRun

end
-- ==== Proof.HeadMean.lean ====
/-
  The thresholded head mean, read at one entry on the extended reals.

  For an array x of shape [4, 8, 2048, 2048] the entry (b, r, c) of the result is 1 when
  (Σ_h x[b, h, r, c]) / 8 > f32(0.1) and 0 otherwise. The reference computes it with the host's sum over axis 1
  started from 0, the host's quotient by the splat of 8, an ordered greater-than comparison with the splat of the
  f32 nearest one tenth, and the unsigned conversion of the comparison bit. The kernel computes, on a
  [1, 8, 256, 2048] block, the lane sum over the leading axis of the block viewed [8, 256, 2048], the quotient by 8,
  the same comparison, the bit widened to 32 bits without sign and converted as a signed integer, and views the
  [256, 2048] answer as [1, 256, 2048]. On the extended reals both are the number of the one comparison bit
  `above (Σ_h …)`: a sum of eight terms does not depend on who adds them, 0 + s = s, and a bit widened without
  sign reads the same signed or unsigned. No finiteness is used.
-/
import Idealize.ShloMosaic.Lib.ValueIdx
import Idealize.ShloMosaic.Lib.Pipeline.Value
import Idealize.ShloMosaic.PureOps.Ideal.Laws

noncomputable section

open scoped BigOperators

namespace Cert.HeadMean

open Idealize.ShloMosaic Idealize.ShloMosaic.ValueIdx

/-- The argument's shape, the result's, the scalar shape, and the block's shapes. -/
abbrev X4 : Shape := ⟨4, ![4, 8, 2048, 2048]⟩
abbrev B3 : Shape := ⟨3, ![4, 2048, 2048]⟩
abbrev Sc : Shape := ⟨0, ![]⟩
abbrev Blk4 : Shape := ⟨4, ![1, 8, 256, 2048]⟩
abbrev Blk3 : Shape := ⟨3, ![8, 256, 2048]⟩
abbrev Blk2 : Shape := ⟨2, ![256, 2048]⟩
abbrev Out3 : Shape := ⟨3, ![1, 256, 2048]⟩

/-- The comparison bit of a head sum `s`: whether s / 8 exceeds the f32 nearest one tenth. -/
def above (s : EReal) : BitVec 1 :=
  Ideal.cmp .ogt (Ideal.div s (Ideal.ofBits .f32 0x41000000#32)) (Ideal.ofBits .f32 0x3DCCCCCD#32)

/-- A one-bit word widened to 32 bits without sign reads, as a signed integer, its own value. -/
theorem toInt_setWidth_bit (b : BitVec 1) : (b.setWidth 32).toInt = (b.toNat : ℤ) := by
  rcases BitVec.eq_zero_or_eq_one b with h | h <;> subst h <;> decide

/-- The host's sum over the head axis, read at (b, r, c): the initial value plus the eight heads' entries. -/
theorem host_sum_heads (x : FVec Ideal X4 .f32) (hr : X4.ReducesTo [1] B3) (init : EReal) (b : Fin 4) (r c : Fin 2048) :
    Ideal.hostReduceAdd hr x init (ix3 b r c) = init + ∑ h : Fin 8, x (ix4 b h r c) := by
  have hred : X4.Reduces [1] B3 := by decide
  refine (Ideal.hostReduceAdd_single hr hred x init (ix3 b r c)).trans ?_
  refine congrArg (fun s => init + s) (Finset.sum_congr rfl fun k _ => ?_)
  exact congrArg x (funext fun d => Fin.ext (by
    match d with | ⟨0, _⟩ => rfl | ⟨1, _⟩ => rfl | ⟨2, _⟩ => rfl | ⟨3, _⟩ => rfl))

/-- The vector unit's sum over the leading axis of an [8, 256, 2048] block, read at (r, c): the eight heads' entries. -/
theorem lane_sum_heads (v : FVec Ideal Blk3 .f32) (hr : Blk3.Reduces [0] Blk2) (hφ : FKind.Formats .f32)
    (hacc : (0x00000000#32 : BitVec 32) = FKind.add.neutral .f32 hφ) (r : Fin 256) (c : Fin 2048) :
    multiReduction .add [0] Blk2 v 0x00000000#32 hr hφ hacc (ix2 r c) = ∑ h : Fin 8, v (ix3 h r c) := by
  refine (Ideal.multiReduction_add_single v _ hr hφ hacc (ix2 r c)).trans ?_
  refine Finset.sum_congr rfl fun k _ => ?_
  exact congrArg v (funext fun d => Fin.ext (by
    match d with | ⟨0, _⟩ => rfl | ⟨1, _⟩ => rfl | ⟨2, _⟩ => rfl))

/-- THE REFERENCE'S ENTRY: the converted comparison of the host's head mean with one tenth, at (b, r, c). -/
theorem ref_entry (x : FVec Ideal X4 .f32) (hr : X4.ReducesTo [1] B3) (hS : 0 < Sc.numel)
    (hb : Sc.BroadcastsInDim B3 (![] : Fin 0 → Fin B3.rank)) (b : Fin 4) (r c : Fin 2048) :
    uitofp (F := Ideal) .f32 (cmpf .ogt (Host.divf (Host.reduceAdd x (constant (F := Ideal) Sc .f32 0x00000000#32) hr hS)
        (broadcastInDim B3 ![] hb (constant (F := Ideal) Sc .f32 0x41000000#32)))
        (broadcastInDim B3 ![] hb (constant (F := Ideal) Sc .f32 0x3DCCCCCD#32))) (ix3 b r c)
      = (((above (∑ h : Fin 8, x (ix4 b h r c))).toNat : ℝ) : EReal) := by
  show (((Ideal.cmp .ogt (Ideal.div (Ideal.hostReduceAdd hr x (Ideal.ofBits .f32 0x00000000#32) (ix3 b r c))
      (Ideal.ofBits .f32 0x41000000#32)) (Ideal.ofBits .f32 0x3DCCCCCD#32)).toNat : ℝ) : EReal) = _
  rw [host_sum_heads, Ideal.ofBits_zero_f32, zero_add]
  rfl

/-- THE KERNEL'S ENTRY: what the body stores at (0, r, c) of its output block, from the loaded input block. -/
theorem kernel_entry (v0 : FVec Ideal Blk4 .f32) (h1 : Blk4.ShapeCasts Blk3) (hr : Blk3.Reduces [0] Blk2)
    (hφ : FKind.Formats .f32) (hacc : (0x00000000#32 : BitVec 32) = FKind.add.neutral .f32 hφ) (hlt : 1 < 32)
    (h2 : Blk2.ShapeCasts Out3) (z : Fin 1) (r : Fin 256) (c : Fin 2048) :
    shapeCast Out3 (sitofp (F := Ideal) .f32 (extui 32 (cmpf .ogt
        (divf (multiReduction .add [0] Blk2 (shapeCast Blk3 v0 h1) 0x00000000#32 hr hφ hacc)
          (broadcast Blk2 (Scalar.ofBits (F := Ideal) .f32 0x41000000#32)))
        (broadcast Blk2 (Scalar.ofBits (F := Ideal) .f32 0x3DCCCCCD#32))) hlt)) h2 (ix3 z r c)
      = (((above (∑ h : Fin 8, v0 (ix4 0 h r c))).toNat : ℝ) : EReal) := by
  refine (shapeCast_addUnit_apply ![256, 2048] _ h2 (ix3 z r c)).trans ?_
  have e2 : (fun a : Fin 2 => (ix3 z r c : Out3.Idx) a.succ) = ix2 r c :=
    funext fun a => by match a with | ⟨0, _⟩ => rfl | ⟨1, _⟩ => rfl
  rw [e2]
  show ((((Ideal.cmp .ogt (Ideal.div (multiReduction .add [0] Blk2 (shapeCast Blk3 v0 h1) 0x00000000#32 hr hφ hacc (ix2 r c))
      (Ideal.ofBits .f32 0x41000000#32)) (Ideal.ofBits .f32 0x3DCCCCCD#32)).setWidth 32).toInt : ℝ) : EReal) = _
  rw [lane_sum_heads, toInt_setWidth_bit, Int.cast_natCast]
  have e4 : ∀ h : Fin 8, shapeCast Blk3 v0 h1 (ix3 h r c) = v0 (ix4 0 h r c) := fun h => by
    refine (shapeCast_dropUnit_apply ![8, 256, 2048] v0 h1 (ix3 h r c)).trans ?_
    exact congrArg v0 (funext fun d => by
      match d with | ⟨0, _⟩ => rfl | ⟨1, _⟩ => rfl | ⟨2, _⟩ => rfl | ⟨3, _⟩ => rfl)
  simp only [e4]
  rfl

/-- THE THRESHOLDED MATRIX as one function of the argument: entry (b, r, c) is the number of the comparison bit of the
    eight heads' sum there. -/
def matrix (x : FVec Ideal X4 .f32) : FVec Ideal B3 .f32 :=
  fun i => (((above (∑ h : Fin 8, x (ix4 (i 0) h (i 1) (i 2)))).toNat : ℝ) : EReal)

theorem matrix_apply (x : FVec Ideal X4 .f32) (b : Fin 4) (r c : Fin 2048) :
    matrix x (ix3 b r c) = (((above (∑ h : Fin 8, x (ix4 b h r c))).toNat : ℝ) : EReal) := rfl

/-- The reference's spelling of it is that matrix. -/
theorem ref_matrix (x : FVec Ideal X4 .f32) (hr : X4.ReducesTo [1] B3) (hS : 0 < Sc.numel)
    (hb : Sc.BroadcastsInDim B3 (![] : Fin 0 → Fin B3.rank)) :
    uitofp (F := Ideal) .f32 (cmpf .ogt (Host.divf (Host.reduceAdd x (constant (F := Ideal) Sc .f32 0x00000000#32) hr hS)
        (broadcastInDim B3 ![] hb (constant (F := Ideal) Sc .f32 0x41000000#32)))
        (broadcastInDim B3 ![] hb (constant (F := Ideal) Sc .f32 0x3DCCCCCD#32)))
      = matrix x := by
  funext i
  obtain ⟨b, r, c, rfl⟩ : ∃ (b : Fin 4) (r c : Fin 2048), i = ix3 b r c := ⟨i 0, i 1, i 2, eq_ix3 i⟩
  exact ref_entry x hr hS hb b r c

end Cert.HeadMean

end
-- ==== Proof.IdealMatrix.lean ====
/-
  What the region leaves in its result array, at the ideal values: the thresholded head mean of the argument.

  Grid point t = (b, q) of the 4 × 8 grid reads the block x[b, :, 256 q … 256 q + 255, :] and writes back the block
  out[b, 256 q … 256 q + 255, :]. Entry (0, r, c) of what it writes is the comparison bit of Σ_h block[0, h, r, c],
  and block[0, h, r, c] is x[b, h, 256 q + r, c]: so the block written back is block t of ONE function of the
  argument, `HeadMean.matrix`. Every entry (b, r', c) of the array lies in the block of the point (b, r' / 256), and
  every point writes back: the array ends holding that function.
-/
import proofs.«118756_j85736137163440_1_alg».proof.Proof.IdealRegion
import proofs.«118756_j85736137163440_1_alg».proof.Proof.HeadMean
import Idealize.ShloMosaic.Lib.Pipeline.Value
import Idealize.ShloMosaic.Lib.ValueIdx

set_option maxRecDepth 16384

noncomputable section

open scoped BigOperators

namespace Cert.KernelIdeal.Matrix

open Cert.KernelIdeal Cert.KernelIdeal.Gen Cert.KernelIdeal.Region
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The two windows move together: at every grid point the input's block indices are (b, 0, q, 0) where the
    output's are (b, q, 0), with b ≤ 3 and q ≤ 7. -/
theorem block_indices : ∀ t : Fin cfg0.N,
    win0_0.index t (0 : Fin 4) = win0_1.index t (0 : Fin 3) ∧ win0_0.index t (1 : Fin 4) = 0
    ∧ win0_0.index t (2 : Fin 4) = win0_1.index t (1 : Fin 3) ∧ win0_0.index t (3 : Fin 4) = 0
    ∧ win0_1.index t (2 : Fin 3) = 0 ∧ win0_1.index t (0 : Fin 3) ≤ 3 ∧ win0_1.index t (1 : Fin 3) ≤ 7 :=
  (by decide +kernel : ∀ t : Fin grid0.N, _)

/-- Every (b, q) is some point's output block index. -/
theorem block_onto : ∀ (q0 : Fin 4) (q1 : Fin 8), ∃ t : Fin cfg0.N, win0_1.index t = ![q0.val, q1.val, 0] :=
  (by decide +kernel : ∀ (q0 : Fin 4) (q1 : Fin 8), ∃ t : Fin grid0.N, win0_1.index t = ![q0.val, q1.val, 0])

/-- WHAT POINT t WRITES BACK is block t of the thresholded matrix of the argument as the region finds it. -/
theorem flushed_eq (c : Dev nD) (t : Fin cfg0.N) :
    (dats m 0 c).flushed 1 t = ((cfg0.win 1).blk t).view.read (Elt Ideal) (HeadMean.matrix (V m c main_arg0)) := by
  show (cfg0.win 1).cut (grid0.coords t) ((dats m 0 c).after 1 t) = _
  rw [after0_1]
  unfold blockAfter
  rw [View.canon_unit_zero zeros3]
  simp only [View.ld_unit_zero (S := S1x8x256x2048) zeros4]
  obtain ⟨e0, e1, e2, e3, e4, e5, e6⟩ := block_indices t
  funext j
  obtain ⟨z, r, cc, rfl⟩ : ∃ (z : Fin 1) (r : Fin 256) (cc : Fin 2048), j = ix3 z r cc := ⟨j 0, j 1, j 2, eq_ix3 j⟩
  have hz : z.val = 0 := by have := z.isLt; omega
  have hr : r.val < 256 := r.isLt
  -- the entry's place in the array
  have hemb : ((cfg0.win 1).blk t).view.emb (ix3 z r cc)
      = ix3 (⟨win0_1.index t (0 : Fin 3), by omega⟩ : Fin 4) (⟨win0_1.index t (1 : Fin 3) * 256 + r.val, by omega⟩ : Fin 2048) cc := by
    funext a; apply Fin.ext
    match a with
    | ⟨0, _⟩ => show win0_1.index t (0 : Fin 3) * 1 + 1 * z.val = win0_1.index t (0 : Fin 3); omega
    | ⟨1, _⟩ => show win0_1.index t (1 : Fin 3) * 256 + 1 * r.val = win0_1.index t (1 : Fin 3) * 256 + r.val; omega
    | ⟨2, _⟩ => show win0_1.index t (2 : Fin 3) * 2048 + 1 * cc.val = cc.val; omega
  -- the input block's entries in the array
  have hin : ∀ h : Fin 8, iblk m c 0 t (ix4 (0 : Fin 1) h r cc)
      = V m c main_arg0 (ix4 (⟨win0_1.index t (0 : Fin 3), by omega⟩ : Fin 4) h (⟨win0_1.index t (1 : Fin 3) * 256 + r.val, by omega⟩ : Fin 2048) cc) := fun h => by
    show V m c main_arg0 (((cfg0.win 0).blk t).view.emb (ix4 (0 : Fin 1) h r cc)) = _
    refine congrArg (V m c main_arg0) (funext fun a => Fin.ext ?_)
    match a with
    | ⟨0, _⟩ => show win0_0.index t (0 : Fin 4) * 1 + 1 * 0 = win0_1.index t (0 : Fin 3); omega
    | ⟨1, _⟩ => show win0_0.index t (1 : Fin 4) * 8 + 1 * h.val = h.val; omega
    | ⟨2, _⟩ => show win0_0.index t (2 : Fin 4) * 256 + 1 * r.val = win0_1.index t (1 : Fin 3) * 256 + r.val; omega
    | ⟨3, _⟩ => show win0_0.index t (3 : Fin 4) * 2048 + 1 * cc.val = cc.val; omega
  show k0_pay1 (iblk m c 0 t) (ix3 z r cc) = HeadMean.matrix (V m c main_arg0) (((cfg0.win 1).blk t).view.emb (ix3 z r cc))
  rw [hemb, HeadMean.matrix_apply]
  refine (HeadMean.kernel_entry (iblk m c 0 t) _ _ _ _ _ _ z r cc).trans ?_
  exact congrArg (fun s => (((HeadMean.above s).toNat : ℝ) : EReal)) (Finset.sum_congr rfl fun h _ => hin h)

/-- An entry of the array is in point t's block iff each coordinate is in the block's range on its axis. -/
theorem mem_blk (t : Fin cfg0.N) (i : S4x2048x2048.Idx) :
    i ∈ ((cfg0.win 1).blk t).view.set ↔ ∀ a : Fin 3, win0_1.index t a * S1x256x2048.size a ≤ (i a).val ∧ (i a).val < win0_1.index t a * S1x256x2048.size a + S1x256x2048.size a := by
  show i ∈ ((View.whole main_v0).slice (win0_1.rect t)).set ↔ _
  rw [View.set_slice_whole, Rect.mem_set_unit]
  exact Iff.rfl

/-- Every entry (b, r', c) is in the block of the point whose output block index is (b, r' / 256, 0). -/
theorem covered (i : S4x2048x2048.Idx) :
    ∃ t : Fin cfg0.N, (cfg0.win 1).flush t = true ∧ i ∈ ((cfg0.win 1).blk t).view.set := by
  have hi0 : (i 0).val < 4 := (i 0).isLt
  have hi1 : (i 1).val < 2048 := (i 1).isLt
  have hi2 : (i 2).val < 2048 := (i 2).isLt
  obtain ⟨t, ht⟩ := block_onto ⟨(i 0).val, hi0⟩ ⟨(i 1).val / 256, by omega⟩
  have q0 : win0_1.index t (0 : Fin 3) = (i 0).val := congrFun ht 0
  have q1 : win0_1.index t (1 : Fin 3) = (i 1).val / 256 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 256 ≤ (i 1).val ∧ (i 1).val < win0_1.index t (1 : Fin 3) * 256 + 256; omega
  | ⟨2, _⟩ => show win0_1.index t (2 : Fin 3) * 2048 ≤ (i 2).val ∧ (i 2).val < win0_1.index t (2 : Fin 3) * 2048 + 2048; omega

/-- THE RESULT ARRAY after the region: the thresholded matrix of the argument's launch contents. -/
theorem final (c : Dev nD) :
    (dats m 0 c).arrAt 1 cfg0.N = HeadMean.matrix (m ((c : Thread nD τ).loc main_arg0)) := by
  rw [← V_main_arg0 m c]
  exact (dats m 0 c).arrAt_eq_of_cover 1 _ (fun t _ => flushed_eq m c t) covered

end Cert.KernelIdeal.Matrix

end
-- ==== Proof.SharedTail.lean ====
/-
  The two programs end with the same sixty-one host operations.

  After the thresholded matrix both @mains run, operation for operation and literal for literal, the same line:
  three box counts (a reshape, a maximum over the two in-box axes, a sum over the boxes, a [4] to [4, 1] re-lay),
  their stacking into a [4, 3] table, then the logarithms of the counts plus one and of the reciprocal box sizes, the
  centred products, the slope, its squared distance from two, the mean and the weight. The line reads only the
  matrix and the table of box sizes. So from any two memories that agree on those two buffers the two lines leave
  equal results. The line is cut at the stacking: before it each of the three counts is the same composed function
  of the matrix on both sides; the stacking joins three equal columns; after it the loss is the same composed
  function of the stacked table and the box sizes. None of these functions is opened.
-/
import proofs.«118756_j85736137163440_1_alg».proof.Proof.Gen.KernelIdeal.Launch
import proofs.«118756_j85736137163440_1_alg».proof.Proof.RefRun
import Idealize.ShloMosaic.Lib.StableHlo.Run

noncomputable section

namespace Cert.Proof.SharedTail

open Idealize.ShloMosaic Idealize.ShloMosaic.TcCoe Idealize.ShloMosaic.StableHlo

variable {F : FTy → Type} [FloatOps F]

/-- The fold over a line cut in two is the fold over the second part after the fold over the first. -/
theorem after_app {τ : Topo} {sig : RefSig} {Val : EltTy → Type} (a b : List (HloOp τ sig Val)) (V : Valuation τ sig Val) :
    after (a ++ b) V = after b (after a V) := by
  induction a generalizing V with
  | nil => rfl
  | cons op a ih => exact ih _

/-! ## The kernel program's line, cut at the stacking -/

section KernelSide
open Cert.KernelIdeal Cert.KernelIdeal.Gen

/-- The three box counts. -/
abbrev kCounts : List (HloOp τ sig (Elt F)) :=
  [ StableHlo.reshape main_v0 main_v1 rfl shapeCasts_S4x2048x2048_S4x1024x2x1024x2,
    StableHlo.nullary main_cst_0 (constant S_ .f32 0xFF800000#32),
    StableHlo.binary main_v1 main_cst_0 main_v2 ((fun x v => Host.reduce FloatOps.maximumf x v reducesTo_S4x1024x2x1024x2_S4x1024x1024_d2_4 h_S_) : (⟨S4x1024x2x1024x2, .f32⟩ : BufTy).Contents (Elt F) → (⟨S_, .f32⟩ : BufTy).Contents (Elt F) → (⟨S4x1024x1024, .f32⟩ : BufTy).Contents (Elt F)),
    StableHlo.nullary main_cst_1 (constant S_ .f32 0x00000000#32),
    StableHlo.binary main_v2 main_cst_1 main_v3 ((fun x v => Host.reduceAdd x v reducesTo_S4x1024x1024_S4_d1_2 h_S_) : (⟨S4x1024x1024, .f32⟩ : BufTy).Contents (Elt F) → (⟨S_, .f32⟩ : BufTy).Contents (Elt F) → (⟨S4, .f32⟩ : BufTy).Contents (Elt F)),
    StableHlo.reshape main_v0 main_v4 rfl shapeCasts_S4x2048x2048_S4x512x4x512x4,
    StableHlo.nullary main_cst_2 (constant S_ .f32 0xFF800000#32),
    StableHlo.binary main_v4 main_cst_2 main_v5 ((fun x v => Host.reduce FloatOps.maximumf x v reducesTo_S4x512x4x512x4_S4x512x512_d2_4 h_S_) : (⟨S4x512x4x512x4, .f32⟩ : BufTy).Contents (Elt F) → (⟨S_, .f32⟩ : BufTy).Contents (Elt F) → (⟨S4x512x512, .f32⟩ : BufTy).Contents (Elt F)),
    StableHlo.nullary main_cst_3 (constant S_ .f32 0x00000000#32),
    StableHlo.binary main_v5 main_cst_3 main_v6 ((fun x v => Host.reduceAdd x v reducesTo_S4x512x512_S4_d1_2 h_S_) : (⟨S4x512x512, .f32⟩ : BufTy).Contents (Elt F) → (⟨S_, .f32⟩ : BufTy).Contents (Elt F) → (⟨S4, .f32⟩ : BufTy).Contents (Elt F)),
    StableHlo.reshape main_v0 main_v7 rfl shapeCasts_S4x2048x2048_S4x256x8x256x8,
    StableHlo.nullary main_cst_4 (constant S_ .f32 0xFF800000#32),
    StableHlo.binary main_v7 main_cst_4 main_v8 ((fun x v => Host.reduce FloatOps.maximumf x v reducesTo_S4x256x8x256x8_S4x256x256_d2_4 h_S_) : (⟨S4x256x8x256x8, .f32⟩ : BufTy).Contents (Elt F) → (⟨S_, .f32⟩ : BufTy).Contents (Elt F) → (⟨S4x256x256, .f32⟩ : BufTy).Contents (Elt F)),
    StableHlo.nullary main_cst_5 (constant S_ .f32 0x00000000#32),
    StableHlo.binary main_v8 main_cst_5 main_v9 ((fun x v => Host.reduceAdd x v reducesTo_S4x256x256_S4_d1_2 h_S_) : (⟨S4x256x256, .f32⟩ : BufTy).Contents (Elt F) → (⟨S_, .f32⟩ : BufTy).Contents (Elt F) → (⟨S4, .f32⟩ : BufTy).Contents (Elt F)),
    StableHlo.unary main_v3 main_v10 (broadcastInDim S4x1 ![0] bcast_S4_S4x1_0 : (⟨S4, .f32⟩ : BufTy).Contents (Elt F) → (⟨S4x1, .f32⟩ : BufTy).Contents (Elt F)),
    StableHlo.unary main_v6 main_v11 (broadcastInDim S4x1 ![0] bcast_S4_S4x1_0 : (⟨S4, .f32⟩ : BufTy).Contents (Elt F) → (⟨S4x1, .f32⟩ : BufTy).Contents (Elt F)),
    StableHlo.unary main_v9 main_v12 (broadcastInDim S4x1 ![0] bcast_S4_S4x1_0 : (⟨S4, .f32⟩ : BufTy).Contents (Elt F) → (⟨S4x1, .f32⟩ : BufTy).Contents (Elt F)) ]
/-- The stacking of the three count columns. -/
abbrev kStack : HloOp τ sig (Elt F) :=
  StableHlo.nary ![main_v10, main_v11, main_v12] main_v13 (fun u => concatenate S4x3 1 [⟨S4x1, u 0⟩, ⟨S4x1, u 1⟩, ⟨S4x1, u 2⟩] concatenates_S4x1_S4x1_S4x1_S4x3_d1)
/-- The slope fit and the loss. -/
abbrev kFit : List (HloOp τ sig (Elt F)) :=
  [ StableHlo.nullary main_cst_6 (constant S_ .f32 0x3F800000#32),
    StableHlo.unary main_cst_6 main_v14 (broadcastInDim S3 ![] bcast_S_S3 : (⟨S_, .f32⟩ : BufTy).Contents (Elt F) → (⟨S3, .f32⟩ : BufTy).Contents (Elt F)),
    StableHlo.binary main_v14 main_cst main_v15 (Host.divf : (⟨S3, .f32⟩ : BufTy).Contents (Elt F) → (⟨S3, .f32⟩ : BufTy).Contents (Elt F) → (⟨S3, .f32⟩ : BufTy).Contents (Elt F)),
    StableHlo.unary main_v15 main_v16 (Host.log : (⟨S3, .f32⟩ : BufTy).Contents (Elt F) → (⟨S3, .f32⟩ : BufTy).Contents (Elt F)),
    StableHlo.nullary main_cst_7 (constant S_ .f32 0x3F800000#32),
    StableHlo.unary main_cst_7 main_v17 (broadcastInDim S4x3 ![] bcast_S_S4x3 : (⟨S_, .f32⟩ : BufTy).Contents (Elt F) → (⟨S4x3, .f32⟩ : BufTy).Contents (Elt F)),
    StableHlo.binary main_v13 main_v17 main_v18 (addf : (⟨S4x3, .f32⟩ : BufTy).Contents (Elt F) → (⟨S4x3, .f32⟩ : BufTy).Contents (Elt F) → (⟨S4x3, .f32⟩ : BufTy).Contents (Elt F)),
    StableHlo.unary main_v18 main_v19 (Host.log : (⟨S4x3, .f32⟩ : BufTy).Contents (Elt F) → (⟨S4x3, .f32⟩ : BufTy).Contents (Elt F)),
    StableHlo.nullary main_cst_8 (constant S_ .f32 0x00000000#32),
    StableHlo.binary main_v16 main_cst_8 main_v20 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.nullary main_cst_9 (constant S_ .f32 0x40400000#32),
    StableHlo.binary main_v20 main_cst_9 main_v21 (Host.divf : (⟨S_, .f32⟩ : BufTy).Contents (Elt F) → (⟨S_, .f32⟩ : BufTy).Contents (Elt F) → (⟨S_, .f32⟩ : BufTy).Contents (Elt F)),
    StableHlo.unary main_v21 main_v22 (broadcastInDim S3 ![] bcast_S_S3 : (⟨S_, .f32⟩ : BufTy).Contents (Elt F) → (⟨S3, .f32⟩ : BufTy).Contents (Elt F)),
    StableHlo.binary main_v16 main_v22 main_v23 (subf : (⟨S3, .f32⟩ : BufTy).Contents (Elt F) → (⟨S3, .f32⟩ : BufTy).Contents (Elt F) → (⟨S3, .f32⟩ : BufTy).Contents (Elt F)),
    StableHlo.nullary main_cst_10 (constant S_ .f32 0x00000000#32),
    StableHlo.binary main_v19 main_cst_10 main_v24 ((fun x v => Host.reduceAdd x v reducesTo_S4x3_S4_d1 h_S_) : (⟨S4x3, .f32⟩ : BufTy).Contents (Elt F) → (⟨S_, .f32⟩ : BufTy).Contents (Elt F) → (⟨S4, .f32⟩ : BufTy).Contents (Elt F)),
    StableHlo.unary main_v24 main_v25 (broadcastInDim S4x1 ![0] bcast_S4_S4x1_0 : (⟨S4, .f32⟩ : BufTy).Contents (Elt F) → (⟨S4x1, .f32⟩ : BufTy).Contents (Elt F)),
    StableHlo.nullary main_cst_11 (constant S_ .f32 0x40400000#32),
    StableHlo.unary main_cst_11 main_v26 (broadcastInDim S4x1 ![] bcast_S_S4x1 : (⟨S_, .f32⟩ : BufTy).Contents (Elt F) → (⟨S4x1, .f32⟩ : BufTy).Contents (Elt F)),
    StableHlo.binary main_v25 main_v26 main_v27 (Host.divf : (⟨S4x1, .f32⟩ : BufTy).Contents (Elt F) → (⟨S4x1, .f32⟩ : BufTy).Contents (Elt F) → (⟨S4x1, .f32⟩ : BufTy).Contents (Elt F)),
    StableHlo.unary main_v27 main_v28 (broadcastInDim S4x3 ![0, 1] bcast_S4x1_S4x3_0_1 : (⟨S4x1, .f32⟩ : BufTy).Contents (Elt F) → (⟨S4x3, .f32⟩ : BufTy).Contents (Elt F)),
    StableHlo.binary main_v19 main_v28 main_v29 (subf : (⟨S4x3, .f32⟩ : BufTy).Contents (Elt F) → (⟨S4x3, .f32⟩ : BufTy).Contents (Elt F) → (⟨S4x3, .f32⟩ : BufTy).Contents (Elt F)),
    StableHlo.unary main_v23 main_v30 (broadcastInDim S1x3 ![1] bcast_S3_S1x3_1 : (⟨S3, .f32⟩ : BufTy).Contents (Elt F) → (⟨S1x3, .f32⟩ : BufTy).Contents (Elt F)),
    StableHlo.unary main_v30 main_v31 (broadcastInDim S4x3 ![0, 1] bcast_S1x3_S4x3_0_1 : (⟨S1x3, .f32⟩ : BufTy).Contents (Elt F) → (⟨S4x3, .f32⟩ : BufTy).Contents (Elt F)),
    StableHlo.binary main_v31 main_v29 main_v32 (mulf : (⟨S4x3, .f32⟩ : BufTy).Contents (Elt F) → (⟨S4x3, .f32⟩ : BufTy).Contents (Elt F) → (⟨S4x3, .f32⟩ : BufTy).Contents (Elt F)),
    StableHlo.nullary main_cst_12 (constant S_ .f32 0x00000000#32),
    StableHlo.binary main_v32 main_cst_12 main_v33 ((fun x v => Host.reduceAdd x v reducesTo_S4x3_S4_d1 h_S_) : (⟨S4x3, .f32⟩ : BufTy).Contents (Elt F) → (⟨S_, .f32⟩ : BufTy).Contents (Elt F) → (⟨S4, .f32⟩ : BufTy).Contents (Elt F)),
    StableHlo.binary main_v23 main_v23 main_v34 (mulf : (⟨S3, .f32⟩ : BufTy).Contents (Elt F) → (⟨S3, .f32⟩ : BufTy).Contents (Elt F) → (⟨S3, .f32⟩ : BufTy).Contents (Elt F)),
    StableHlo.nullary main_cst_13 (constant S_ .f32 0x00000000#32),
    StableHlo.binary main_v34 main_cst_13 main_v35 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.unary main_v35 main_v36 (broadcastInDim S4 ![] bcast_S_S4 : (⟨S_, .f32⟩ : BufTy).Contents (Elt F) → (⟨S4, .f32⟩ : BufTy).Contents (Elt F)),
    StableHlo.binary main_v33 main_v36 main_v37 (Host.divf : (⟨S4, .f32⟩ : BufTy).Contents (Elt F) → (⟨S4, .f32⟩ : BufTy).Contents (Elt F) → (⟨S4, .f32⟩ : BufTy).Contents (Elt F)),
    StableHlo.nullary main_cst_14 (constant S_ .f32 0x40000000#32),
    StableHlo.unary main_cst_14 main_v38 (broadcastInDim S4 ![] bcast_S_S4 : (⟨S_, .f32⟩ : BufTy).Contents (Elt F) → (⟨S4, .f32⟩ : BufTy).Contents (Elt F)),
    StableHlo.binary main_v37 main_v38 main_v39 (subf : (⟨S4, .f32⟩ : BufTy).Contents (Elt F) → (⟨S4, .f32⟩ : BufTy).Contents (Elt F) → (⟨S4, .f32⟩ : BufTy).Contents (Elt F)),
    StableHlo.binary main_v39 main_v39 main_v40 (mulf : (⟨S4, .f32⟩ : BufTy).Contents (Elt F) → (⟨S4, .f32⟩ : BufTy).Contents (Elt F) → (⟨S4, .f32⟩ : BufTy).Contents (Elt F)),
    StableHlo.nullary main_cst_15 (constant S_ .f32 0x00000000#32),
    StableHlo.binary main_v40 main_cst_15 main_v41 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_16 (constant S_ .f32 0x40800000#32),
    StableHlo.binary main_v41 main_cst_16 main_v42 (Host.divf : (⟨S_, .f32⟩ : BufTy).Contents (Elt F) → (⟨S_, .f32⟩ : BufTy).Contents (Elt F) → (⟨S_, .f32⟩ : BufTy).Contents (Elt F)),
    StableHlo.nullary main_cst_17 (constant S_ .f32 0x3BA3D70A#32),
    StableHlo.binary main_cst_17 main_v42 main_v43 (mulf : (⟨S_, .f32⟩ : BufTy).Contents (Elt F) → (⟨S_, .f32⟩ : BufTy).Contents (Elt F) → (⟨S_, .f32⟩ : BufTy).Contents (Elt F)) ]

theorem k_cut : (hostOps1 : List (HloOp τ sig (Elt F))) = kCounts ++ kStack :: kFit := rfl

end KernelSide

/-! ## The reference's line, cut at the stacking -/

section ReferenceSide
open Cert.ReferenceIdeal Cert.ReferenceIdeal.Gen

abbrev rCounts : List (HloOp τ sig (Elt F)) :=
  [ StableHlo.reshape main_v5 main_v6 rfl shapeCasts_S4x2048x2048_S4x1024x2x1024x2,
    StableHlo.nullary main_cst_3 (constant S_ .f32 0xFF800000#32),
    StableHlo.binary main_v6 main_cst_3 main_v7 ((fun x v => Host.reduce FloatOps.maximumf x v reducesTo_S4x1024x2x1024x2_S4x1024x1024_d2_4 h_S_) : (⟨S4x1024x2x1024x2, .f32⟩ : BufTy).Contents (Elt F) → (⟨S_, .f32⟩ : BufTy).Contents (Elt F) → (⟨S4x1024x1024, .f32⟩ : BufTy).Contents (Elt F)),
    StableHlo.nullary main_cst_4 (constant S_ .f32 0x00000000#32),
    StableHlo.binary main_v7 main_cst_4 main_v8 ((fun x v => Host.reduceAdd x v reducesTo_S4x1024x1024_S4_d1_2 h_S_) : (⟨S4x1024x1024, .f32⟩ : BufTy).Contents (Elt F) → (⟨S_, .f32⟩ : BufTy).Contents (Elt F) → (⟨S4, .f32⟩ : BufTy).Contents (Elt F)),
    StableHlo.reshape main_v5 main_v9 rfl shapeCasts_S4x2048x2048_S4x512x4x512x4,
    StableHlo.nullary main_cst_5 (constant S_ .f32 0xFF800000#32),
    StableHlo.binary main_v9 main_cst_5 main_v10 ((fun x v => Host.reduce FloatOps.maximumf x v reducesTo_S4x512x4x512x4_S4x512x512_d2_4 h_S_) : (⟨S4x512x4x512x4, .f32⟩ : BufTy).Contents (Elt F) → (⟨S_, .f32⟩ : BufTy).Contents (Elt F) → (⟨S4x512x512, .f32⟩ : BufTy).Contents (Elt F)),
    StableHlo.nullary main_cst_6 (constant S_ .f32 0x00000000#32),
    StableHlo.binary main_v10 main_cst_6 main_v11 ((fun x v => Host.reduceAdd x v reducesTo_S4x512x512_S4_d1_2 h_S_) : (⟨S4x512x512, .f32⟩ : BufTy).Contents (Elt F) → (⟨S_, .f32⟩ : BufTy).Contents (Elt F) → (⟨S4, .f32⟩ : BufTy).Contents (Elt F)),
    StableHlo.reshape main_v5 main_v12 rfl shapeCasts_S4x2048x2048_S4x256x8x256x8,
    StableHlo.nullary main_cst_7 (constant S_ .f32 0xFF800000#32),
    StableHlo.binary main_v12 main_cst_7 main_v13 ((fun x v => Host.reduce FloatOps.maximumf x v reducesTo_S4x256x8x256x8_S4x256x256_d2_4 h_S_) : (⟨S4x256x8x256x8, .f32⟩ : BufTy).Contents (Elt F) → (⟨S_, .f32⟩ : BufTy).Contents (Elt F) → (⟨S4x256x256, .f32⟩ : BufTy).Contents (Elt F)),
    StableHlo.nullary main_cst_8 (constant S_ .f32 0x00000000#32),
    StableHlo.binary main_v13 main_cst_8 main_v14 ((fun x v => Host.reduceAdd x v reducesTo_S4x256x256_S4_d1_2 h_S_) : (⟨S4x256x256, .f32⟩ : BufTy).Contents (Elt F) → (⟨S_, .f32⟩ : BufTy).Contents (Elt F) → (⟨S4, .f32⟩ : BufTy).Contents (Elt F)),
    StableHlo.unary main_v8 main_v15 (broadcastInDim S4x1 ![0] bcast_S4_S4x1_0 : (⟨S4, .f32⟩ : BufTy).Contents (Elt F) → (⟨S4x1, .f32⟩ : BufTy).Contents (Elt F)),
    StableHlo.unary main_v11 main_v16 (broadcastInDim S4x1 ![0] bcast_S4_S4x1_0 : (⟨S4, .f32⟩ : BufTy).Contents (Elt F) → (⟨S4x1, .f32⟩ : BufTy).Contents (Elt F)),
    StableHlo.unary main_v14 main_v17 (broadcastInDim S4x1 ![0] bcast_S4_S4x1_0 : (⟨S4, .f32⟩ : BufTy).Contents (Elt F) → (⟨S4x1, .f32⟩ : BufTy).Contents (Elt F)) ]
abbrev rStack : HloOp τ sig (Elt F) :=
  StableHlo.nary ![main_v15, main_v16, main_v17] main_v18 (fun u => concatenate S4x3 1 [⟨S4x1, u 0⟩, ⟨S4x1, u 1⟩, ⟨S4x1, u 2⟩] concatenates_S4x1_S4x1_S4x1_S4x3_d1)
abbrev rFit : List (HloOp τ sig (Elt F)) :=
  [ StableHlo.nullary main_cst_9 (constant S_ .f32 0x3F800000#32),
    StableHlo.unary main_cst_9 main_v19 (broadcastInDim S3 ![] bcast_S_S3 : (⟨S_, .f32⟩ : BufTy).Contents (Elt F) → (⟨S3, .f32⟩ : BufTy).Contents (Elt F)),
    StableHlo.binary main_v19 main_cst main_v20 (Host.divf : (⟨S3, .f32⟩ : BufTy).Contents (Elt F) → (⟨S3, .f32⟩ : BufTy).Contents (Elt F) → (⟨S3, .f32⟩ : BufTy).Contents (Elt F)),
    StableHlo.unary main_v20 main_v21 (Host.log : (⟨S3, .f32⟩ : BufTy).Contents (Elt F) → (⟨S3, .f32⟩ : BufTy).Contents (Elt F)),
    StableHlo.nullary main_cst_10 (constant S_ .f32 0x3F800000#32),
    StableHlo.unary main_cst_10 main_v22 (broadcastInDim S4x3 ![] bcast_S_S4x3 : (⟨S_, .f32⟩ : BufTy).Contents (Elt F) → (⟨S4x3, .f32⟩ : BufTy).Contents (Elt F)),
    StableHlo.binary main_v18 main_v22 main_v23 (addf : (⟨S4x3, .f32⟩ : BufTy).Contents (Elt F) → (⟨S4x3, .f32⟩ : BufTy).Contents (Elt F) → (⟨S4x3, .f32⟩ : BufTy).Contents (Elt F)),
    StableHlo.unary main_v23 main_v24 (Host.log : (⟨S4x3, .f32⟩ : BufTy).Contents (Elt F) → (⟨S4x3, .f32⟩ : BufTy).Contents (Elt F)),
    StableHlo.nullary main_cst_11 (constant S_ .f32 0x00000000#32),
    StableHlo.binary main_v21 main_cst_11 main_v25 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.nullary main_cst_12 (constant S_ .f32 0x40400000#32),
    StableHlo.binary main_v25 main_cst_12 main_v26 (Host.divf : (⟨S_, .f32⟩ : BufTy).Contents (Elt F) → (⟨S_, .f32⟩ : BufTy).Contents (Elt F) → (⟨S_, .f32⟩ : BufTy).Contents (Elt F)),
    StableHlo.unary main_v26 main_v27 (broadcastInDim S3 ![] bcast_S_S3 : (⟨S_, .f32⟩ : BufTy).Contents (Elt F) → (⟨S3, .f32⟩ : BufTy).Contents (Elt F)),
    StableHlo.binary main_v21 main_v27 main_v28 (subf : (⟨S3, .f32⟩ : BufTy).Contents (Elt F) → (⟨S3, .f32⟩ : BufTy).Contents (Elt F) → (⟨S3, .f32⟩ : BufTy).Contents (Elt F)),
    StableHlo.nullary main_cst_13 (constant S_ .f32 0x00000000#32),
    StableHlo.binary main_v24 main_cst_13 main_v29 ((fun x v => Host.reduceAdd x v reducesTo_S4x3_S4_d1 h_S_) : (⟨S4x3, .f32⟩ : BufTy).Contents (Elt F) → (⟨S_, .f32⟩ : BufTy).Contents (Elt F) → (⟨S4, .f32⟩ : BufTy).Contents (Elt F)),
    StableHlo.unary main_v29 main_v30 (broadcastInDim S4x1 ![0] bcast_S4_S4x1_0 : (⟨S4, .f32⟩ : BufTy).Contents (Elt F) → (⟨S4x1, .f32⟩ : BufTy).Contents (Elt F)),
    StableHlo.nullary main_cst_14 (constant S_ .f32 0x40400000#32),
    StableHlo.unary main_cst_14 main_v31 (broadcastInDim S4x1 ![] bcast_S_S4x1 : (⟨S_, .f32⟩ : BufTy).Contents (Elt F) → (⟨S4x1, .f32⟩ : BufTy).Contents (Elt F)),
    StableHlo.binary main_v30 main_v31 main_v32 (Host.divf : (⟨S4x1, .f32⟩ : BufTy).Contents (Elt F) → (⟨S4x1, .f32⟩ : BufTy).Contents (Elt F) → (⟨S4x1, .f32⟩ : BufTy).Contents (Elt F)),
    StableHlo.unary main_v32 main_v33 (broadcastInDim S4x3 ![0, 1] bcast_S4x1_S4x3_0_1 : (⟨S4x1, .f32⟩ : BufTy).Contents (Elt F) → (⟨S4x3, .f32⟩ : BufTy).Contents (Elt F)),
    StableHlo.binary main_v24 main_v33 main_v34 (subf : (⟨S4x3, .f32⟩ : BufTy).Contents (Elt F) → (⟨S4x3, .f32⟩ : BufTy).Contents (Elt F) → (⟨S4x3, .f32⟩ : BufTy).Contents (Elt F)),
    StableHlo.unary main_v28 main_v35 (broadcastInDim S1x3 ![1] bcast_S3_S1x3_1 : (⟨S3, .f32⟩ : BufTy).Contents (Elt F) → (⟨S1x3, .f32⟩ : BufTy).Contents (Elt F)),
    StableHlo.unary main_v35 main_v36 (broadcastInDim S4x3 ![0, 1] bcast_S1x3_S4x3_0_1 : (⟨S1x3, .f32⟩ : BufTy).Contents (Elt F) → (⟨S4x3, .f32⟩ : BufTy).Contents (Elt F)),
    StableHlo.binary main_v36 main_v34 main_v37 (mulf : (⟨S4x3, .f32⟩ : BufTy).Contents (Elt F) → (⟨S4x3, .f32⟩ : BufTy).Contents (Elt F) → (⟨S4x3, .f32⟩ : BufTy).Contents (Elt F)),
    StableHlo.nullary main_cst_15 (constant S_ .f32 0x00000000#32),
    StableHlo.binary main_v37 main_cst_15 main_v38 ((fun x v => Host.reduceAdd x v reducesTo_S4x3_S4_d1 h_S_) : (⟨S4x3, .f32⟩ : BufTy).Contents (Elt F) → (⟨S_, .f32⟩ : BufTy).Contents (Elt F) → (⟨S4, .f32⟩ : BufTy).Contents (Elt F)),
    StableHlo.binary main_v28 main_v28 main_v39 (mulf : (⟨S3, .f32⟩ : BufTy).Contents (Elt F) → (⟨S3, .f32⟩ : BufTy).Contents (Elt F) → (⟨S3, .f32⟩ : BufTy).Contents (Elt F)),
    StableHlo.nullary main_cst_16 (constant S_ .f32 0x00000000#32),
    StableHlo.binary main_v39 main_cst_16 main_v40 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    StableHlo.unary main_v40 main_v41 (broadcastInDim S4 ![] bcast_S_S4 : (⟨S_, .f32⟩ : BufTy).Contents (Elt F) → (⟨S4, .f32⟩ : BufTy).Contents (Elt F)),
    StableHlo.binary main_v38 main_v41 main_v42 (Host.divf : (⟨S4, .f32⟩ : BufTy).Contents (Elt F) → (⟨S4, .f32⟩ : BufTy).Contents (Elt F) → (⟨S4, .f32⟩ : BufTy).Contents (Elt F)),
    StableHlo.nullary main_cst_17 (constant S_ .f32 0x40000000#32),
    StableHlo.unary main_cst_17 main_v43 (broadcastInDim S4 ![] bcast_S_S4 : (⟨S_, .f32⟩ : BufTy).Contents (Elt F) → (⟨S4, .f32⟩ : BufTy).Contents (Elt F)),
    StableHlo.binary main_v42 main_v43 main_v44 (subf : (⟨S4, .f32⟩ : BufTy).Contents (Elt F) → (⟨S4, .f32⟩ : BufTy).Contents (Elt F) → (⟨S4, .f32⟩ : BufTy).Contents (Elt F)),
    StableHlo.binary main_v44 main_v44 main_v45 (mulf : (⟨S4, .f32⟩ : BufTy).Contents (Elt F) → (⟨S4, .f32⟩ : BufTy).Contents (Elt F) → (⟨S4, .f32⟩ : BufTy).Contents (Elt F)),
    StableHlo.nullary main_cst_18 (constant S_ .f32 0x00000000#32),
    StableHlo.binary main_v45 main_cst_18 main_v46 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_19 (constant S_ .f32 0x40800000#32),
    StableHlo.binary main_v46 main_cst_19 main_v47 (Host.divf : (⟨S_, .f32⟩ : BufTy).Contents (Elt F) → (⟨S_, .f32⟩ : BufTy).Contents (Elt F) → (⟨S_, .f32⟩ : BufTy).Contents (Elt F)),
    StableHlo.nullary main_cst_20 (constant S_ .f32 0x3BA3D70A#32),
    StableHlo.binary main_cst_20 main_v47 main_v48 (mulf : (⟨S_, .f32⟩ : BufTy).Contents (Elt F) → (⟨S_, .f32⟩ : BufTy).Contents (Elt F) → (⟨S_, .f32⟩ : BufTy).Contents (Elt F)) ]

theorem r_cut : (Cert.ReferenceIdeal.HostRun.tailOps : List (HloOp τ sig (Elt F))) = rCounts ++ rStack :: rFit := rfl

end ReferenceSide

/-! ## The three parts agree -/

variable (WK : Valuation Cert.KernelIdeal.τ Cert.KernelIdeal.sig (Elt F))
  (WR : Valuation Cert.ReferenceIdeal.τ Cert.ReferenceIdeal.sig (Elt F))

/-- The count at box size 2, as a [4, 1] column. -/
theorem count2 (hmat : WK (Proc.devRef .tc Cert.KernelIdeal.main_v0) = WR (Proc.devRef .tc Cert.ReferenceIdeal.main_v5)) :
    after (kCounts (F := F)) WK (Proc.devRef .tc Cert.KernelIdeal.main_v10)
      = after (rCounts (F := F)) WR (Proc.devRef .tc Cert.ReferenceIdeal.main_v15) := by
  after_results_simp
  rw [hmat]
  rfl
/-- The count at box size 4. -/
theorem count4 (hmat : WK (Proc.devRef .tc Cert.KernelIdeal.main_v0) = WR (Proc.devRef .tc Cert.ReferenceIdeal.main_v5)) :
    after (kCounts (F := F)) WK (Proc.devRef .tc Cert.KernelIdeal.main_v11)
      = after (rCounts (F := F)) WR (Proc.devRef .tc Cert.ReferenceIdeal.main_v16) := by
  after_results_simp
  rw [hmat]
  rfl
/-- The count at box size 8. -/
theorem count8 (hmat : WK (Proc.devRef .tc Cert.KernelIdeal.main_v0) = WR (Proc.devRef .tc Cert.ReferenceIdeal.main_v5)) :
    after (kCounts (F := F)) WK (Proc.devRef .tc Cert.KernelIdeal.main_v12)
      = after (rCounts (F := F)) WR (Proc.devRef .tc Cert.ReferenceIdeal.main_v17) := by
  after_results_simp
  rw [hmat]
  rfl

/-- The counting does not write the table of box sizes, -/
theorem k_table_kept : after (kCounts (F := F)) WK (Proc.devRef .tc Cert.KernelIdeal.main_cst) = WK (Proc.devRef .tc Cert.KernelIdeal.main_cst) := by
  after_results_simp
theorem r_table_kept : after (rCounts (F := F)) WR (Proc.devRef .tc Cert.ReferenceIdeal.main_cst) = WR (Proc.devRef .tc Cert.ReferenceIdeal.main_cst) := by
  after_results_simp

/-- The stacked table: three equal columns joined side by side. -/
theorem stacked (hmat : WK (Proc.devRef .tc Cert.KernelIdeal.main_v0) = WR (Proc.devRef .tc Cert.ReferenceIdeal.main_v5)) :
    (kStack (F := F)).result (after kCounts WK) (Proc.devRef .tc Cert.KernelIdeal.main_v13)
      = (rStack (F := F)).result (after rCounts WR) (Proc.devRef .tc Cert.ReferenceIdeal.main_v18) := by
  rw [nary_result, nary_result]
  show concatenate Cert.KernelIdeal.S4x3 1
      [⟨Cert.KernelIdeal.S4x1, after kCounts WK (Proc.devRef .tc Cert.KernelIdeal.main_v10)⟩,
       ⟨Cert.KernelIdeal.S4x1, after kCounts WK (Proc.devRef .tc Cert.KernelIdeal.main_v11)⟩,
       ⟨Cert.KernelIdeal.S4x1, after kCounts WK (Proc.devRef .tc Cert.KernelIdeal.main_v12)⟩] _
    = concatenate Cert.ReferenceIdeal.S4x3 1
      [⟨Cert.ReferenceIdeal.S4x1, after rCounts WR (Proc.devRef .tc Cert.ReferenceIdeal.main_v15)⟩,
       ⟨Cert.ReferenceIdeal.S4x1, after rCounts WR (Proc.devRef .tc Cert.ReferenceIdeal.main_v16)⟩,
       ⟨Cert.ReferenceIdeal.S4x1, after rCounts WR (Proc.devRef .tc Cert.ReferenceIdeal.main_v17)⟩] _
  rw [count2 WK WR hmat, count4 WK WR hmat, count8 WK WR hmat]

/-- The fit: from memories agreeing on the stacked table and on the box sizes, the same loss. -/
theorem fit_agrees (UK : Valuation Cert.KernelIdeal.τ Cert.KernelIdeal.sig (Elt F))
    (UR : Valuation Cert.ReferenceIdeal.τ Cert.ReferenceIdeal.sig (Elt F))
    (hstk : UK (Proc.devRef .tc Cert.KernelIdeal.main_v13) = UR (Proc.devRef .tc Cert.ReferenceIdeal.main_v18))
    (htab : UK (Proc.devRef .tc Cert.KernelIdeal.main_cst) = UR (Proc.devRef .tc Cert.ReferenceIdeal.main_cst)) :
    after (kFit (F := F)) UK (Proc.devRef .tc Cert.KernelIdeal.main_v43)
      = after (rFit (F := F)) UR (Proc.devRef .tc Cert.ReferenceIdeal.main_v48) := by
  after_results_simp
  rw [hstk, htab]

/-- From memories agreeing on the thresholded matrix and on the table of box sizes, the kernel program's last
    sixty-one operations and the reference's leave the same loss. -/
theorem tails_agree
    (hmat : WK (Proc.devRef .tc Cert.KernelIdeal.main_v0) = WR (Proc.devRef .tc Cert.ReferenceIdeal.main_v5))
    (htab : WK (Proc.devRef .tc Cert.KernelIdeal.main_cst) = WR (Proc.devRef .tc Cert.ReferenceIdeal.main_cst)) :
    after (Cert.KernelIdeal.Gen.hostOps1 (F := F)) WK (Proc.devRef .tc Cert.KernelIdeal.main_v43)
      = after (Cert.ReferenceIdeal.HostRun.tailOps (F := F)) WR (Proc.devRef .tc Cert.ReferenceIdeal.main_v48) := by
  rw [k_cut, r_cut, after_app, after_app, after_cons, after_cons]
  refine fit_agrees _ _ (stacked WK WR hmat) ?_
  refine (nary_result_ne _ _ _ _ _ _ (by decide)).trans ?_
  refine (k_table_kept WK).trans ?_
  refine htab.trans ?_
  exact ((nary_result_ne _ _ _ _ _ _ (by decide)).trans (r_table_kept WR)).symm

end Cert.Proof.SharedTail

end
-- ==== Proof.Bridge.lean ====
/-
  The two programs' results are equal.

  The kernel program's result is what its last sixty-one operations make of the memory the region leaves: the
  result array at the thresholded matrix of the argument (the region's value), the table of box sizes as the first
  operation wrote it, everything else as it was. The reference's result is what the same sixty-one operations make of
  the memory its first ten leave: the matrix buffer at the reference's spelling of the thresholded matrix, which
  is the same function of the argument, and the same table. The arguments agree, so the two memories agree on
  the two buffers the line reads.
-/
import proofs.«118756_j85736137163440_1_alg».proof.Proof.IdealMatrix
import proofs.«118756_j85736137163440_1_alg».proof.Proof.RefRun
import proofs.«118756_j85736137163440_1_alg».proof.Proof.SharedTail
import proofs.«118756_j85736137163440_1_alg».proof.Proof.HeadMean

noncomputable section

namespace Cert.Proof.Bridge

open Idealize.ShloMosaic Idealize.ShloMosaic.TcCoe Idealize.ShloMosaic.StableHlo Idealize.SL.Sem

/-- The reference's spelling of the thresholded matrix is the matrix. -/
theorem thresholded_eq (x : FVec Ideal Cert.ReferenceIdeal.S4x8x2048x2048 .f32) :
    Cert.ReferenceIdeal.HostRun.thresholded (F := Ideal) x = Cert.HeadMean.matrix x := by
  unfold Cert.ReferenceIdeal.HostRun.thresholded
  exact Cert.HeadMean.ref_matrix x _ _ _

/-- The table of box sizes the kernel program's first operation writes is still there when its last sixty-one
    operations run. -/
theorem kernel_table (m : (ℓ : Loc Cert.KernelIdeal.nD Cert.KernelIdeal.τ Cert.KernelIdeal.sig) → Buf (Elt Ideal) ℓ) (c : Dev Cert.KernelIdeal.nD) :
    Cert.KernelIdeal.Region.V0 m c (Proc.devRef .tc Cert.KernelIdeal.main_cst)
      = (fun i => FloatOps.ofBits (F := Ideal) .f32 (Cert.KernelIdeal.lit0 (Cert.KernelIdeal.S3.rowMajor i)) :
          FVec Ideal Cert.KernelIdeal.S3 .f32) := by
  show StableHlo.after Cert.KernelIdeal.Gen.hostOps0 (fun b => m (c, b)) (Proc.devRef .tc Cert.KernelIdeal.main_cst) = _
  after_results
  rfl

set_option backward.isDefEq.respectTransparency.types false in
/-- THE RESULTS AGREE: from arguments that agree, the kernel program's loss is the reference's. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Pipeline.afterTail₀ Cert.KernelIdeal.cfgs (Cert.KernelIdeal.Region.dats m) 0 (Cert.KernelIdeal.Region.V0 m) [Cert.KernelIdeal.Gen.hostOps1] c Cert.KernelIdeal.main_v43
      = after Cert.ReferenceIdeal.HostRun.tailOps (after Cert.ReferenceIdeal.HostRun.headOps (launchContents m' c)) (Proc.devRef .tc Cert.ReferenceIdeal.main_v48) := by
  unfold Pipeline.afterTail₀
  show after Cert.KernelIdeal.Gen.hostOps1 _ (Proc.devRef .tc Cert.KernelIdeal.main_v43) = _
  refine Cert.Proof.SharedTail.tails_agree _ _ ?_ ?_
  · refine ((Pipeline.withArrays_arr Cert.KernelIdeal.spec0 Cert.KernelIdeal.Gen.launch0.win.arr_inj c _ _ 1).trans
      (Cert.KernelIdeal.Matrix.final m c)).trans ?_
    refine Eq.symm ((Cert.ReferenceIdeal.HostRun.head_matrix (F := Ideal) _).trans ?_)
    refine (thresholded_eq _).trans ?_
    exact congrArg Cert.HeadMean.matrix hagree
  · refine (Pipeline.withArrays_of_ne Cert.KernelIdeal.spec0 c (Cert.KernelIdeal.Region.V0 m c) _ Cert.KernelIdeal.main_cst
      (by decide)).trans ?_
    refine (kernel_table m c).trans ?_
    exact Eq.symm (Cert.ReferenceIdeal.HostRun.head_table (F := Ideal) _)

end Cert.Proof.Bridge

end
-- ==== Proof.lean ====
/-
  The kernel program — a pipelined region that averages attention weights over their eight heads and thresholds the
  mean at one tenth, followed by host operations that count occupied boxes at three scales and fit a slope —
  against its reference, which does the averaging and thresholding on the host and then runs the same operations.

  The three frames: each program runs to the end, faults nowhere and leaves its argument as launched. For the two
  programs with the region this is read off the region's frame run (the argument is the input window's array, which
  ends at its entry contents); for the reference off its straight-line run (no operation writes the argument).
  The idealization rewrote nothing, so there is nothing to preserve. The results are equal on the extended reals
  because the region leaves the thresholded matrix of the argument, the reference's first ten operations leave the
  same function of the argument, and from there on the two programs are one line of operations.
-/
import proofs.«118756_j85736137163440_1_alg».proof.Defs
import proofs.«118756_j85736137163440_1_alg».proof.Proof.Gen.Kernel
import proofs.«118756_j85736137163440_1_alg».proof.Proof.Gen.KernelIdeal
import proofs.«118756_j85736137163440_1_alg».proof.Proof.Gen.ReferenceIdeal
import proofs.«118756_j85736137163440_1_alg».proof.Proof.Gen.Pre_finite_inputs
import proofs.«118756_j85736137163440_1_alg».proof.Proof.BitsRegion
import proofs.«118756_j85736137163440_1_alg».proof.Proof.IdealRegion
import proofs.«118756_j85736137163440_1_alg».proof.Proof.RefRun
import proofs.«118756_j85736137163440_1_alg».proof.Proof.Bridge

noncomputable section

namespace Cert.Proof

open Idealize.ShloMosaic Idealize.ShloMosaic.TcCoe Idealize.SL.Sem

theorem frame_kernel : Cert.frame_Kernel := fun m ρ _ => Cert.Kernel.Region.frame m ρ

theorem frame_kernelIdeal : Cert.frame_KernelIdeal := fun m ρ _ => Cert.KernelIdeal.Region.frame m ρ

/-- The reference's argument is written by none of its seventy-one operations. -/
theorem frame_referenceIdeal : Cert.frame_ReferenceIdeal := fun m ρ _ =>
  (θ_run Cert.ReferenceIdeal.defs _ _).mono
    (fun _ h c => (h c Cert.ReferenceIdeal.main_arg0).trans
      ((Cert.ReferenceIdeal.HostRun.tail_arg _).trans (Cert.ReferenceIdeal.HostRun.head_arg _)))
    (Cert.ReferenceIdeal.HostRun.run (F := Ideal) m ρ)

theorem preserves : Cert.preserves_Kernel_KernelIdeal := trivial

set_option backward.isDefEq.respectTransparency.types false in
/-- Both programs run; the kernel program's loss (what its last operations make of what the region left) is the
    reference's; both arguments end as launched. -/
theorem algebraic : Cert.algebraic_KernelIdeal_ReferenceIdeal := by
  intro m ρ m' ρ' _ hagree
  refine ⟨fun c => Pipeline.afterTail₀ Cert.KernelIdeal.cfgs (Cert.KernelIdeal.Region.dats m) 0 (Cert.KernelIdeal.Region.V0 m)
      [Cert.KernelIdeal.Gen.hostOps1] c Cert.KernelIdeal.main_v43, ?_, ?_⟩
  · refine (θ_run Cert.KernelIdeal.defs _ _).mono (fun r h c => ⟨?_, ?_⟩) (Cert.KernelIdeal.Region.run_main m ρ)
    · exact (h c).2 Cert.KernelIdeal.main_v43 (Pipeline.mem_restRefs_of Cert.KernelIdeal.main_v43 (by decide) (by decide))
    · exact ((h c).1 0).trans (((Cert.KernelIdeal.Region.dats m 0 c).arrAt_in 0 rfl _).trans
        ((Cert.KernelIdeal.Region.A_eq m c 0).trans (Cert.KernelIdeal.Region.V_main_arg0 m c)))
  · refine (θ_run Cert.ReferenceIdeal.defs _ _).mono (fun r h c => ⟨?_, ?_⟩) (Cert.ReferenceIdeal.HostRun.run (F := Ideal) m' ρ')
    · exact (h c Cert.ReferenceIdeal.main_v48).trans (Cert.Proof.Bridge.results_agree m m' c (hagree c)).symm
    · exact (h c Cert.ReferenceIdeal.main_arg0).trans
        ((Cert.ReferenceIdeal.HostRun.tail_arg _).trans (Cert.ReferenceIdeal.HostRun.head_arg _))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
